-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S8192x1024 : Shape := ⟨2, ![8192, 1024]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 36
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S4x2048x1024, .bf16⟩
  | .hbm, ⟨30, _⟩ => ⟨S4x2048x1024, .bf16⟩
  | .hbm, ⟨31, _⟩ => ⟨S4x2048x1024, .bf16⟩
  | .hbm, ⟨32, _⟩ => ⟨S4x2048x1024, .bf16⟩
  | .hbm, ⟨33, _⟩ => ⟨S8192x1024, .bf16⟩
  | .hbm, ⟨34, _⟩ => ⟨S8192x1024, .f32⟩
  | .hbm, ⟨35, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x512x128, .bf16⟩
  | .local _ .vmem, ⟨19, _⟩ => ⟨S1x512x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x2048x128, .bf16⟩
  | .local _ .vmem, ⟨23, _⟩ => ⟨S1x2048x128, .bf16⟩
  | .local _ .vmem, ⟨24, _⟩ => ⟨S1x512x128, .bf16⟩
  | .local _ .vmem, ⟨25, _⟩ => ⟨S1x512x128, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![4, 8, 4], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 2 → Memref sig .tc .vmem S1x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x512x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  dot_S1024x1024_S1024x1024_S1024x1024_1_0_0_1_n_n_wf : DotDims.WF S1024x1024 S1024x1024 S1024x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x128.size a ≤ S4x2048x1024.size a
  hwx3_0 : ∀ i : grid3.Coords, EltTy.bits .bf16 = 32 ∨ (Rect.block (s := S4x2048x1024) S1x512x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x128.size a ≤ S4x2048x1024.size a
  hwx3_1 : ∀ i : grid3.Coords, EltTy.bits .bf16 = 32 ∨ (Rect.block (s := S4x2048x1024) S1x2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x128.size a ≤ S4x2048x1024.size a
  hwx3_2 : ∀ i : grid3.Coords, EltTy.bits .bf16 = 32 ∨ (Rect.block (s := S4x2048x1024) S1x2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x128.size a ≤ S4x2048x1024.size a
  hwx3_3 : ∀ i : grid3.Coords, EltTy.bits .bf16 = 32 ∨ (Rect.block (s := S4x2048x1024) S1x512x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S8192x1024.size a
  hwx4_3 : ∀ i : grid4.Coords, EltTy.bits .f32 = 32 ∨ (Rect.block (s := S8192x1024) S1024x1024.size (cc4_transform_3 i) (hinb4_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v18) S1x512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v22) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S4x16x2048x2048, .f32⟩
  | .hbm, ⟨30, _⟩ => ⟨S_, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S_, .f32⟩
  | .hbm, ⟨36, _⟩ => ⟨S4x16x2048, .f32⟩
  | .hbm, ⟨37, _⟩ => ⟨S4x16x2048, .f32⟩
  | .hbm, ⟨38, _⟩ => ⟨S4x16x2048x1, .f32⟩
  | .hbm, ⟨39, _⟩ => ⟨S4x16x2048x2048, .f32⟩
  | .hbm, ⟨40, _⟩ => ⟨S4x16x2048x2048, .f32⟩
  | .hbm, ⟨41, _⟩ => ⟨S4x16x2048x2048, .f32⟩
  | .hbm, ⟨42, _⟩ => ⟨S_, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x16x2048x64, .f32⟩
  | .hbm, ⟨48, _⟩ => ⟨S4x2048x16x64, .f32⟩
  | .hbm, ⟨49, _⟩ => ⟨S4x2048x1024, .f32⟩
  | .hbm, ⟨50, _⟩ => ⟨S4x2048x1024, .f32⟩
  | .hbm, ⟨51, _⟩ => ⟨S1x1x1024, .f32⟩
  | .hbm, ⟨52, _⟩ => ⟨S4x2048x1024, .f32⟩
  | .hbm, ⟨53, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Run.lean ====
/-
  The idealized kernel's whole run, with the contents of EVERY buffer at the return named.

  @main is nine segments: a stretch of host operations (the four weight matrices transposed and narrowed, the four
  biases and the three inputs reshaped), the three input linear layers as grid kernels, three reshapes, the attention
  kernel, a reshape, the output linear layer, a last reshape. The frame certificate folds the buffer contents through
  the segments — `W0` at launch, `W1` after the first host stretch, `W2 … W4` after each input layer (the layer's
  output array at what its grid points wrote back, everything else untouched), `W5` after the reshapes, and so on to
  `W9` at the return — and proves that every weakly fair execution terminates in a state whose unscoped buffers hold
  `W9`. Here that statement is kept whole, and the result buffer and the eleven arguments are then read off it.
-/
import proofs.«143443_j37838661877847_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, in a state whose every unscoped buffer holds the
    last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run, read at the result buffer and at the eleven arguments: the result holds `W9` at its buffer, the
    arguments what they were launched with. -/
theorem run_result : θ_run defs (onTc (τ := τ) (main (F := F))) ⟨m, fun _ => 0, ρ⟩ (fun r => ∀ c : Dev nD,
      r.2.mem ((c.tc : Thread nD τ).loc main_v24) = W9 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v24 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c)⟩)
    (run_all m ρ)

end Cert.KernelIdeal.Whole

end
-- ==== Proof.ProjBody.lean ====
/-
  What a linear-layer kernel's body stores, read at one element.

  The body loads a 1024 × 1024 tile `a` of the input rows, the whole transposed weight matrix `w` (input column ×
  output column) and the bias row `b` (1 × 1024), and stores `a · w + b`: the matrix product into a zero accumulator,
  plus the bias broadcast down the rows. Narrowing to bf16 is the identity on extended reals. So the stored element at
  row `p`, column `q` is `∑ k, a p k · w k q + b 0 q`.
-/
import proofs.«143443_j37838661877847_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.ProjBody

open Cert.KernelIdeal Cert.KernelIdeal.Gen Idealize.ShloMosaic Idealize.ShloMosaic.ValueIdx

/-- The product's operand indices at output element `j` and contraction index `κ`, coordinate by coordinate: the left
    operand is read at row `j 0`, the right at column `j 1`, both at the contraction index on the other axis. -/
theorem tile_lhs_0 (j : S1024x1024.Idx) (κ : dot_S1024x1024_S1024x1024_S1024x1024_1_0_0_1_n_n.contr.Idx) :
    (dot_S1024x1024_S1024x1024_S1024x1024_1_0_0_1_n_n.lhsIdx j κ 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem tile_lhs_1 (j : S1024x1024.Idx) (κ : dot_S1024x1024_S1024x1024_S1024x1024_1_0_0_1_n_n.contr.Idx) :
    (dot_S1024x1024_S1024x1024_S1024x1024_1_0_0_1_n_n.lhsIdx j κ 1).val = (κ ⟨0, by decide⟩).val :=
  dot_S1024x1024_S1024x1024_S1024x1024_1_0_0_1_n_n.lhsIdx_val_of_single rfl j κ
theorem tile_rhs_0 (j : S1024x1024.Idx) (κ : dot_S1024x1024_S1024x1024_S1024x1024_1_0_0_1_n_n.contr.Idx) :
    (dot_S1024x1024_S1024x1024_S1024x1024_1_0_0_1_n_n.rhsIdx j κ 0).val = (κ ⟨0, by decide⟩).val :=
  dot_S1024x1024_S1024x1024_S1024x1024_1_0_0_1_n_n.rhsIdx_val_of_single rfl j κ
theorem tile_rhs_1 (j : S1024x1024.Idx) (κ : dot_S1024x1024_S1024x1024_S1024x1024_1_0_0_1_n_n.contr.Idx) :
    (dot_S1024x1024_S1024x1024_S1024x1024_1_0_0_1_n_n.rhsIdx j κ 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The tile product at an element: the contraction runs over the 1024 input columns. -/
theorem tile_matmul_apply {φ₁ φ₂ : FTy} (a : FVec Ideal S1024x1024 φ₁) (w : FVec Ideal S1024x1024 φ₂) (p q : Fin 1024) :
    matmul (F := Ideal) dot_S1024x1024_S1024x1024_S1024x1024_1_0_0_1_n_n none a w (constant S1024x1024 .f32 0x00000000#32) (ix2 p q)
      = ∑ k : Fin 1024, a (ix2 p k) * w (ix2 k q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun d => Fin.ext (by
      match d with
      | ⟨0, _⟩ => exact tile_lhs_0 _ _
      | ⟨1, _⟩ => exact (tile_lhs_1 _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun d => Fin.ext (by
      match d with
      | ⟨0, _⟩ => exact (tile_rhs_0 _ _).trans hk
      | ⟨1, _⟩ => exact tile_rhs_1 _ _)
  rw [el, er]

/-- The bias row broadcast down the 1024 rows, read at an element: the bias of that column. -/
theorem bias_bcast_apply (b : FVec Ideal S1x1024 .f32) (p q : Fin 1024) :
    broadcastTo S1024x1024 b broadcasts_S1x1024_S1024x1024 (ix2 p q) = b (ix2 (0 : Fin 1) q) :=
  broadcastTo_apply b broadcasts_S1x1024_S1024x1024 (ix2 p q) (ix2 (0 : Fin 1) q) (fun d => by
    match d with
    | ⟨0, _⟩ => rfl
    | ⟨1, _⟩ => rfl)

/-- The linear layer on the 8192 flattened rows: row `i 0` of the input against column `i 1` of the transposed
    weights, plus that column's bias. Every linear-layer kernel's output array is this function of its three operand
    arrays (narrowing and widening between f32 and bf16 change nothing here). -/
def layer (a : S8192x1024.Idx → EReal) (w : S1024x1024.Idx → EReal) (b : S1x1024.Idx → EReal) : S8192x1024.Idx → EReal :=
  fun i => (∑ k : Fin 1024, a (ix2 (n0 := 8192) (n1 := 1024) ⟨(i 0).val, (i 0).isLt⟩ k) * w (ix2 (n0 := 1024) (n1 := 1024) k ⟨(i 1).val, (i 1).isLt⟩))
    + b (ix2 (n0 := 1) (n1 := 1024) (0 : Fin 1) ⟨(i 1).val, (i 1).isLt⟩)

/-- The three input layers' stored tile at an element. -/
theorem pay0_apply (x0 : Vec Ideal S1024x1024 .f32) (x1 : Vec Ideal S1024x1024 .bf16) (x2 : Vec Ideal S1x1024 .f32) (p q : Fin 1024) :
    k0_pay1 (F := Ideal) x0 x1 x2 (ix2 p q) = (∑ k : Fin 1024, x0 (ix2 p k) * x1 (ix2 k q)) + x2 (ix2 (0 : Fin 1) q) := by
  unfold k0_pay1
  simp only [shapeCast_self]
  show matmul (F := Ideal) dot_S1024x1024_S1024x1024_S1024x1024_1_0_0_1_n_n none x0 x1 (constant S1024x1024 .f32 0x00000000#32) (ix2 p q)
      + broadcastTo S1024x1024 x2 broadcasts_S1x1024_S1024x1024 (ix2 p q) = _
  rw [tile_matmul_apply, bias_bcast_apply]
theorem pay1_apply (x0 : Vec Ideal S1024x1024 .f32) (x1 : Vec Ideal S1024x1024 .bf16) (x2 : Vec Ideal S1x1024 .f32) (p q : Fin 1024) :
    k1_pay1 (F := Ideal) x0 x1 x2 (ix2 p q) = (∑ k : Fin 1024, x0 (ix2 p k) * x1 (ix2 k q)) + x2 (ix2 (0 : Fin 1) q) :=
  pay0_apply x0 x1 x2 p q
theorem pay2_apply (x0 : Vec Ideal S1024x1024 .f32) (x1 : Vec Ideal S1024x1024 .bf16) (x2 : Vec Ideal S1x1024 .f32) (p q : Fin 1024) :
    k2_pay1 (F := Ideal) x0 x1 x2 (ix2 p q) = (∑ k : Fin 1024, x0 (ix2 p k) * x1 (ix2 k q)) + x2 (ix2 (0 : Fin 1) q) :=
  pay0_apply x0 x1 x2 p q

/-- The output layer's stored tile at an element (its input tile is bf16, its result f32: the same extended reals). -/
theorem pay4_apply (x0 : Vec Ideal S1024x1024 .bf16) (x1 : Vec Ideal S1024x1024 .bf16) (x2 : Vec Ideal S1x1024 .f32) (p q : Fin 1024) :
    k4_pay1 (F := Ideal) x0 x1 x2 (ix2 p q) = (∑ k : Fin 1024, x0 (ix2 p k) * x1 (ix2 k q)) + x2 (ix2 (0 : Fin 1) q) := by
  unfold k4_pay1
  simp only [shapeCast_self]
  show matmul (F := Ideal) dot_S1024x1024_S1024x1024_S1024x1024_1_0_0_1_n_n none x0 x1 (constant S1024x1024 .f32 0x00000000#32) (ix2 p q)
      + broadcastTo S1024x1024 x2 broadcasts_S1x1024_S1024x1024 (ix2 p q) = _
  rw [tile_matmul_apply, bias_bcast_apply]

end Cert.KernelIdeal.ProjBody

end
-- ==== Proof.Layer0.lean ====
/-
  The query linear layer as a grid kernel: its output array after the run is the layer of its three operand arrays.

  The grid has 8 points. Point `t` stages rows `1024 t … 1024 t + 1023` of the 8192 flattened input rows, the whole
  transposed weight matrix and the whole bias row, and writes back rows `1024 t … 1024 t + 1023` of the output. What a
  point writes back is therefore the matching block of ONE whole-array function — row `r` of the input against column
  `e` of the weights plus bias `e` —, and the 8 blocks tile the 8192 rows, so the array ends holding that function.
  All of it is stated for ANY contents `V` of the buffers at the region's entry.
-/
import proofs.«143443_j37838661877847_2_alg».proof.Proof.Gen.KernelIdeal.Frame
import proofs.«143443_j37838661877847_2_alg».proof.Proof.ProjBody
import Idealize.ShloMosaic.Lib.Pipeline.Value

set_option maxRecDepth 16384

noncomputable section

namespace Cert.KernelIdeal.Layer0

open Cert.KernelIdeal Cert.KernelIdeal.Gen Cert.KernelIdeal.ProjBody
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the 8 points: the input rows move with the output rows; the weights and the bias stay put. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every block of 1024 rows is some point's. -/
theorem index_onto : ∀ q0 : Fin 8, ∃ t : Fin cfg0.N, win0_3.index t = ![q0.val, 0] :=
  (by decide +kernel : ∀ q0 : Fin 8, ∃ t : Fin grid0.N, win0_3.index t = ![q0.val, 0])

/-- What point `t` writes back is block `t` of the layer of the operand arrays as the region finds them. -/
theorem flushed_eq (c : Dev nD) (t : Fin cfg0.N) :
    (dat0 V c).flushed 3 t = ((cfg0.win 3).blk t).view.read (Elt Ideal)
      (layer (V c main_v12) (V c main_v1) (V c main_v8)) := by
  show (cfg0.win 3).cut (grid0.coords t) ((dat0 V c).after 3 t) = _
  rw [after0_3]
  unfold out0_3
  rw [View.canon_unit_zero origin2]
  simp only [View.ld_unit_zero (S := S1024x1024) origin2, View.ld_unit_zero (S := S1x1024) origin2]
  obtain ⟨e0, e1, e2, e3, e4, e5, e6, e7⟩ := index_facts t
  funext j
  obtain ⟨p, q, rfl⟩ : ∃ (p : Fin 1024) (q : Fin 1024), j = ix2 p q := ⟨j 0, j 1, eq_ix2 j⟩
  show k0_pay1 (F := Ideal) (iblk0 V c 0 t) (iblk0 V c 1 t) (iblk0 V c 2 t) (ix2 p q)
      = layer (V c main_v12) (V c main_v1) (V c main_v8) (((cfg0.win 3).blk t).view.emb (ix2 p q))
  refine (pay0_apply _ _ _ p q).trans ?_
  unfold layer
  refine congrArg₂ (· + ·) (Finset.sum_congr rfl fun k _ => congrArg₂ (· * ·) ?_ ?_) ?_
  · show V c main_v12 (((cfg0.win 0).blk t).view.emb (ix2 p k)) = V c main_v12 _
    refine congrArg _ (funext fun a => Fin.ext ?_)
    match a with
    | ⟨0, _⟩ =>
      show win0_0.index t (0 : Fin 2) * 1024 + 1 * p.val = win0_3.index t (0 : Fin 2) * 1024 + 1 * p.val
      omega
    | ⟨1, _⟩ =>
      show win0_0.index t (1 : Fin 2) * 1024 + 1 * k.val = k.val
      omega
  · show V c main_v1 (((cfg0.win 1).blk t).view.emb (ix2 k q)) = V c main_v1 _
    refine congrArg _ (funext fun a => Fin.ext ?_)
    match a with
    | ⟨0, _⟩ =>
      show win0_1.index t (0 : Fin 2) * 1024 + 1 * k.val = k.val
      omega
    | ⟨1, _⟩ =>
      show win0_1.index t (1 : Fin 2) * 1024 + 1 * q.val = win0_3.index t (1 : Fin 2) * 1024 + 1 * q.val
      omega
  · show V c main_v8 (((cfg0.win 2).blk t).view.emb (ix2 (0 : Fin 1) q)) = V c main_v8 _
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 1024 + 1 * q.val = win0_3.index t (1 : Fin 2) * 1024 + 1 * q.val
      omega

/-- An index of the output array is in point `t`'s block iff each coordinate is in the block's range on its axis. -/
theorem mem_block (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v15).slice (win0_3.rect t)).set ↔ _
  rw [View.set_slice_whole, Rect.mem_set_unit]
  exact Iff.rfl

/-- The 8 blocks of 1024 rows tile the 8192 rows: the point that covers row `r` is the one with block index `r / 1024`. -/
theorem covered (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := index_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The output array after the region: the layer of the operand arrays as the region finds them. -/
theorem final (c : Dev nD) :
    (dat0 V c).arrAt 3 cfg0.N = layer (V c main_v12) (V c main_v1) (V c main_v8) :=
  (dat0 V c).arrAt_eq_of_cover 3 _ (fun t _ => flushed_eq V c t) covered

end Cert.KernelIdeal.Layer0

end
-- ==== Proof.Layer1.lean ====
/-
  The key linear layer as a grid kernel: its output array after the run is the layer of its three operand arrays.

  The grid has 8 points. Point `t` stages rows `1024 t … 1024 t + 1023` of the 8192 flattened input rows, the whole
  transposed weight matrix and the whole bias row, and writes back rows `1024 t … 1024 t + 1023` of the output. What a
  point writes back is therefore the matching block of ONE whole-array function — row `r` of the input against column
  `e` of the weights plus bias `e` —, and the 8 blocks tile the 8192 rows, so the array ends holding that function.
  All of it is stated for ANY contents `V` of the buffers at the region's entry.
-/
import proofs.«143443_j37838661877847_2_alg».proof.Proof.Gen.KernelIdeal.Frame
import proofs.«143443_j37838661877847_2_alg».proof.Proof.ProjBody
import Idealize.ShloMosaic.Lib.Pipeline.Value

set_option maxRecDepth 16384

noncomputable section

namespace Cert.KernelIdeal.Layer1

open Cert.KernelIdeal Cert.KernelIdeal.Gen Cert.KernelIdeal.ProjBody
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the 8 points: the input rows move with the output rows; the weights and the bias stay put. -/
theorem index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every block of 1024 rows is some point's. -/
theorem index_onto : ∀ q0 : Fin 8, ∃ t : Fin cfg1.N, win1_3.index t = ![q0.val, 0] :=
  (by decide +kernel : ∀ q0 : Fin 8, ∃ t : Fin grid1.N, win1_3.index t = ![q0.val, 0])

/-- What point `t` writes back is block `t` of the layer of the operand arrays as the region finds them. -/
theorem flushed_eq (c : Dev nD) (t : Fin cfg1.N) :
    (dat1 V c).flushed 3 t = ((cfg1.win 3).blk t).view.read (Elt Ideal)
      (layer (V c main_v13) (V c main_v3) (V c main_v9)) := by
  show (cfg1.win 3).cut (grid1.coords t) ((dat1 V c).after 3 t) = _
  rw [after1_3]
  unfold out1_3
  rw [View.canon_unit_zero origin2]
  simp only [View.ld_unit_zero (S := S1024x1024) origin2, View.ld_unit_zero (S := S1x1024) origin2]
  obtain ⟨e0, e1, e2, e3, e4, e5, e6, e7⟩ := index_facts t
  funext j
  obtain ⟨p, q, rfl⟩ : ∃ (p : Fin 1024) (q : Fin 1024), j = ix2 p q := ⟨j 0, j 1, eq_ix2 j⟩
  show k1_pay1 (F := Ideal) (iblk1 V c 0 t) (iblk1 V c 1 t) (iblk1 V c 2 t) (ix2 p q)
      = layer (V c main_v13) (V c main_v3) (V c main_v9) (((cfg1.win 3).blk t).view.emb (ix2 p q))
  refine (pay1_apply _ _ _ p q).trans ?_
  unfold layer
  refine congrArg₂ (· + ·) (Finset.sum_congr rfl fun k _ => congrArg₂ (· * ·) ?_ ?_) ?_
  · show V c main_v13 (((cfg1.win 0).blk t).view.emb (ix2 p k)) = V c main_v13 _
    refine congrArg _ (funext fun a => Fin.ext ?_)
    match a with
    | ⟨0, _⟩ =>
      show win1_0.index t (0 : Fin 2) * 1024 + 1 * p.val = win1_3.index t (0 : Fin 2) * 1024 + 1 * p.val
      omega
    | ⟨1, _⟩ =>
      show win1_0.index t (1 : Fin 2) * 1024 + 1 * k.val = k.val
      omega
  · show V c main_v3 (((cfg1.win 1).blk t).view.emb (ix2 k q)) = V c main_v3 _
    refine congrArg _ (funext fun a => Fin.ext ?_)
    match a with
    | ⟨0, _⟩ =>
      show win1_1.index t (0 : Fin 2) * 1024 + 1 * k.val = k.val
      omega
    | ⟨1, _⟩ =>
      show win1_1.index t (1 : Fin 2) * 1024 + 1 * q.val = win1_3.index t (1 : Fin 2) * 1024 + 1 * q.val
      omega
  · show V c main_v9 (((cfg1.win 2).blk t).view.emb (ix2 (0 : Fin 1) q)) = V c main_v9 _
    refine congrArg _ (funext fun a => Fin.ext ?_)
    match a with
    | ⟨0, _⟩ =>
      show win1_2.index t (0 : Fin 2) * 1 + 1 * 0 = 0
      omega
    | ⟨1, _⟩ =>
      show win1_2.index t (1 : Fin 2) * 1024 + 1 * q.val = win1_3.index t (1 : Fin 2) * 1024 + 1 * q.val
      omega

/-- An index of the output array is in point `t`'s block iff each coordinate is in the block's range on its axis. -/
theorem mem_block (t : Fin cfg1.N) (i : S8192x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v16).slice (win1_3.rect t)).set ↔ _
  rw [View.set_slice_whole, Rect.mem_set_unit]
  exact Iff.rfl

/-- The 8 blocks of 1024 rows tile the 8192 rows: the point that covers row `r` is the one with block index `r / 1024`. -/
theorem covered (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := index_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_block]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- The output array after the region: the layer of the operand arrays as the region finds them. -/
theorem final (c : Dev nD) :
    (dat1 V c).arrAt 3 cfg1.N = layer (V c main_v13) (V c main_v3) (V c main_v9) :=
  (dat1 V c).arrAt_eq_of_cover 3 _ (fun t _ => flushed_eq V c t) covered

end Cert.KernelIdeal.Layer1

end
-- ==== Proof.Layer2.lean ====
/-
  The value linear layer as a grid kernel: its output array after the run is the layer of its three operand arrays.

  The grid has 8 points. Point `t` stages rows `1024 t … 1024 t + 1023` of the 8192 flattened input rows, the whole
  transposed weight matrix and the whole bias row, and writes back rows `1024 t … 1024 t + 1023` of the output. What a
  point writes back is therefore the matching block of ONE whole-array function — row `r` of the input against column
  `e` of the weights plus bias `e` —, and the 8 blocks tile the 8192 rows, so the array ends holding that function.
  All of it is stated for ANY contents `V` of the buffers at the region's entry.
-/
import proofs.«143443_j37838661877847_2_alg».proof.Proof.Gen.KernelIdeal.Frame
import proofs.«143443_j37838661877847_2_alg».proof.Proof.ProjBody
import Idealize.ShloMosaic.Lib.Pipeline.Value

set_option maxRecDepth 16384

noncomputable section

namespace Cert.KernelIdeal.Layer2

open Cert.KernelIdeal Cert.KernelIdeal.Gen Cert.KernelIdeal.ProjBody
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the 8 points: the input rows move with the output rows; the weights and the bias stay put. -/
theorem index_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every block of 1024 rows is some point's. -/
theorem index_onto : ∀ q0 : Fin 8, ∃ t : Fin cfg2.N, win2_3.index t = ![q0.val, 0] :=
  (by decide +kernel : ∀ q0 : Fin 8, ∃ t : Fin grid2.N, win2_3.index t = ![q0.val, 0])

/-- What point `t` writes back is block `t` of the layer of the operand arrays as the region finds them. -/
theorem flushed_eq (c : Dev nD) (t : Fin cfg2.N) :
    (dat2 V c).flushed 3 t = ((cfg2.win 3).blk t).view.read (Elt Ideal)
      (layer (V c main_v14) (V c main_v5) (V c main_v10)) := by
  show (cfg2.win 3).cut (grid2.coords t) ((dat2 V c).after 3 t) = _
  rw [after2_3]
  unfold out2_3
  rw [View.canon_unit_zero origin2]
  simp only [View.ld_unit_zero (S := S1024x1024) origin2, View.ld_unit_zero (S := S1x1024) origin2]
  obtain ⟨e0, e1, e2, e3, e4, e5, e6, e7⟩ := index_facts t
  funext j
  obtain ⟨p, q, rfl⟩ : ∃ (p : Fin 1024) (q : Fin 1024), j = ix2 p q := ⟨j 0, j 1, eq_ix2 j⟩
  show k2_pay1 (F := Ideal) (iblk2 V c 0 t) (iblk2 V c 1 t) (iblk2 V c 2 t) (ix2 p q)
      = layer (V c main_v14) (V c main_v5) (V c main_v10) (((cfg2.win 3).blk t).view.emb (ix2 p q))
  refine (pay2_apply _ _ _ p q).trans ?_
  unfold layer
  refine congrArg₂ (· + ·) (Finset.sum_congr rfl fun k _ => congrArg₂ (· * ·) ?_ ?_) ?_
  · show V c main_v14 (((cfg2.win 0).blk t).view.emb (ix2 p k)) = V c main_v14 _
    refine congrArg _ (funext fun a => Fin.ext ?_)
    match a with
    | ⟨0, _⟩ =>
      show win2_0.index t (0 : Fin 2) * 1024 + 1 * p.val = win2_3.index t (0 : Fin 2) * 1024 + 1 * p.val
      omega
    | ⟨1, _⟩ =>
      show win2_0.index t (1 : Fin 2) * 1024 + 1 * k.val = k.val
      omega
  · show V c main_v5 (((cfg2.win 1).blk t).view.emb (ix2 k q)) = V c main_v5 _
    refine congrArg _ (funext fun a => Fin.ext ?_)
    match a with
    | ⟨0, _⟩ =>
      show win2_1.index t (0 : Fin 2) * 1024 + 1 * k.val = k.val
      omega
    | ⟨1, _⟩ =>
      show win2_1.index t (1 : Fin 2) * 1024 + 1 * q.val = win2_3.index t (1 : Fin 2) * 1024 + 1 * q.val
      omega
  · show V c main_v10 (((cfg2.win 2).blk t).view.emb (ix2 (0 : Fin 1) q)) = V c main_v10 _
    refine congrArg _ (funext fun a => Fin.ext ?_)
    match a with
    | ⟨0, _⟩ =>
      show win2_2.index t (0 : Fin 2) * 1 + 1 * 0 = 0
      omega
    | ⟨1, _⟩ =>
      show win2_2.index t (1 : Fin 2) * 1024 + 1 * q.val = win2_3.index t (1 : Fin 2) * 1024 + 1 * q.val
      omega

/-- An index of the output array is in point `t`'s block iff each coordinate is in the block's range on its axis. -/
theorem mem_block (t : Fin cfg2.N) (i : S8192x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v17).slice (win2_3.rect t)).set ↔ _
  rw [View.set_slice_whole, Rect.mem_set_unit]
  exact Iff.rfl

/-- The 8 blocks of 1024 rows tile the 8192 rows: the point that covers row `r` is the one with block index `r / 1024`. -/
theorem covered (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := index_onto ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_block]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 1024 ≤ (i 1).val ∧ (i 1).val < win2_3.index t (1 : Fin 2) * 1024 + 1024
    omega

/-- The output array after the region: the layer of the operand arrays as the region finds them. -/
theorem final (c : Dev nD) :
    (dat2 V c).arrAt 3 cfg2.N = layer (V c main_v14) (V c main_v5) (V c main_v10) :=
  (dat2 V c).arrAt_eq_of_cover 3 _ (fun t _ => flushed_eq V c t) covered

end Cert.KernelIdeal.Layer2

end
-- ==== Proof.Layer4.lean ====
/-
  The output linear layer as a grid kernel: its output array after the run is the layer of its three operand arrays.

  The grid has 8 points. Point `t` stages rows `1024 t … 1024 t + 1023` of the 8192 flattened input rows, the whole
  transposed weight matrix and the whole bias row, and writes back rows `1024 t … 1024 t + 1023` of the output. What a
  point writes back is therefore the matching block of ONE whole-array function — row `r` of the input against column
  `e` of the weights plus bias `e` —, and the 8 blocks tile the 8192 rows, so the array ends holding that function.
  All of it is stated for ANY contents `V` of the buffers at the region's entry.
-/
import proofs.«143443_j37838661877847_2_alg».proof.Proof.Gen.KernelIdeal.Frame
import proofs.«143443_j37838661877847_2_alg».proof.Proof.ProjBody
import Idealize.ShloMosaic.Lib.Pipeline.Value

set_option maxRecDepth 16384

noncomputable section

namespace Cert.KernelIdeal.Layer4

open Cert.KernelIdeal Cert.KernelIdeal.Gen Cert.KernelIdeal.ProjBody
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the 8 points: the input rows move with the output rows; the weights and the bias stay put. -/
theorem index_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 7 :=
  (by decide +kernel : ∀ t : Fin grid4.N, _)

/-- Every block of 1024 rows is some point's. -/
theorem index_onto : ∀ q0 : Fin 8, ∃ t : Fin cfg4.N, win4_3.index t = ![q0.val, 0] :=
  (by decide +kernel : ∀ q0 : Fin 8, ∃ t : Fin grid4.N, win4_3.index t = ![q0.val, 0])

/-- What point `t` writes back is block `t` of the layer of the operand arrays as the region finds them. -/
theorem flushed_eq (c : Dev nD) (t : Fin cfg4.N) :
    (dat4 V c).flushed 3 t = ((cfg4.win 3).blk t).view.read (Elt Ideal)
      (layer (V c main_v22) (V c main_v7) (V c main_v11)) := by
  show (cfg4.win 3).cut (grid4.coords t) ((dat4 V c).after 3 t) = _
  rw [after4_3]
  unfold out4_3
  rw [View.canon_unit_zero origin2]
  simp only [View.ld_unit_zero (S := S1024x1024) origin2, View.ld_unit_zero (S := S1x1024) origin2]
  obtain ⟨e0, e1, e2, e3, e4, e5, e6, e7⟩ := index_facts t
  funext j
  obtain ⟨p, q, rfl⟩ : ∃ (p : Fin 1024) (q : Fin 1024), j = ix2 p q := ⟨j 0, j 1, eq_ix2 j⟩
  show k4_pay1 (F := Ideal) (iblk4 V c 0 t) (iblk4 V c 1 t) (iblk4 V c 2 t) (ix2 p q)
      = layer (V c main_v22) (V c main_v7) (V c main_v11) (((cfg4.win 3).blk t).view.emb (ix2 p q))
  refine (pay4_apply _ _ _ p q).trans ?_
  unfold layer
  refine congrArg₂ (· + ·) (Finset.sum_congr rfl fun k _ => congrArg₂ (· * ·) ?_ ?_) ?_
  · show V c main_v22 (((cfg4.win 0).blk t).view.emb (ix2 p k)) = V c main_v22 _
    refine congrArg _ (funext fun a => Fin.ext ?_)
    match a with
    | ⟨0, _⟩ =>
      show win4_0.index t (0 : Fin 2) * 1024 + 1 * p.val = win4_3.index t (0 : Fin 2) * 1024 + 1 * p.val
      omega
    | ⟨1, _⟩ =>
      show win4_0.index t (1 : Fin 2) * 1024 + 1 * k.val = k.val
      omega
  · show V c main_v7 (((cfg4.win 1).blk t).view.emb (ix2 k q)) = V c main_v7 _
    refine congrArg _ (funext fun a => Fin.ext ?_)
    match a with
    | ⟨0, _⟩ =>
      show win4_1.index t (0 : Fin 2) * 1024 + 1 * k.val = k.val
      omega
    | ⟨1, _⟩ =>
      show win4_1.index t (1 : Fin 2) * 1024 + 1 * q.val = win4_3.index t (1 : Fin 2) * 1024 + 1 * q.val
      omega
  · show V c main_v11 (((cfg4.win 2).blk t).view.emb (ix2 (0 : Fin 1) q)) = V c main_v11 _
    refine congrArg _ (funext fun a => Fin.ext ?_)
    match a with
    | ⟨0, _⟩ =>
      show win4_2.index t (0 : Fin 2) * 1 + 1 * 0 = 0
      omega
    | ⟨1, _⟩ =>
      show win4_2.index t (1 : Fin 2) * 1024 + 1 * q.val = win4_3.index t (1 : Fin 2) * 1024 + 1 * q.val
      omega

/-- An index of the output array is in point `t`'s block iff each coordinate is in the block's range on its axis. -/
theorem mem_block (t : Fin cfg4.N) (i : S8192x1024.Idx) :
    i ∈ ((cfg4.win 3).blk t).view.set ↔ ∀ a : Fin 2, win4_3.index t a * S1024x1024.size a ≤ (i a).val
      ∧ (i a).val < win4_3.index t a * S1024x1024.size a + S1024x1024.size a := by
  show i ∈ ((View.whole main_v23).slice (win4_3.rect t)).set ↔ _
  rw [View.set_slice_whole, Rect.mem_set_unit]
  exact Iff.rfl

/-- The 8 blocks of 1024 rows tile the 8192 rows: the point that covers row `r` is the one with block index `r / 1024`. -/
theorem covered (i : S8192x1024.Idx) :
    ∃ t : Fin cfg4.N, (cfg4.win 3).flush t = true ∧ i ∈ ((cfg4.win 3).blk t).view.set := by
  have hi0 : (i 0).val < 8192 := (i 0).isLt
  have hi1 : (i 1).val < 1024 := (i 1).isLt
  obtain ⟨t, ht⟩ := index_onto ⟨(i 0).val / 1024, by omega⟩
  have q0 : win4_3.index t (0 : Fin 2) = (i 0).val / 1024 := congrFun ht 0
  have q1 : win4_3.index t (1 : Fin 2) = 0 := congrFun ht 1
  refine ⟨t, flush4_3 t, ?_⟩
  rw [mem_block]
  intro a
  match a with
  | ⟨0, _⟩ =>
    show win4_3.index t (0 : Fin 2) * 1024 ≤ (i 0).val ∧ (i 0).val < win4_3.index t (0 : Fin 2) * 1024 + 1024
    omega
  | ⟨1, _⟩ =>
    show win4_3.index t (1 : Fin 2) * 1024 ≤ (i 1).val ∧ (i 1).val < win4_3.index t (1 : Fin 2) * 1024 + 1024
    omega

/-- The output array after the region: the layer of the operand arrays as the region finds them. -/
theorem final (c : Dev nD) :
    (dat4 V c).arrAt 3 cfg4.N = layer (V c main_v22) (V c main_v7) (V c main_v11) :=
  (dat4 V c).arrAt_eq_of_cover 3 _ (fun t _ => flushed_eq V c t) covered

end Cert.KernelIdeal.Layer4

end
-- ==== Proof.Spec.lean ====
/-
  Multi-head attention over the extended reals, as ONE function of the eleven argument arrays.

  Shapes: activations are [4, 2048, 1024] (batch, position, model column); a weight matrix is [1024, 1024]
  (output column, input column); a bias is [1024]. The 1024 model columns are 16 heads of 64 columns each: head `h`
  owns columns `64 h … 64 h + 63`.

  A linear layer is `x · Wᵀ + b`. Within head `h` the score of query position `q` against key position `k` is the dot
  product of the two projected rows over the head's 64 columns, times 1/8 (= 1/√64). A row of scores is turned into
  weights by the shifted exponential `exp (s k − max s)` divided by the row's sum of these, and the head's output at
  `q` is the weighted average of the projected value rows. The last linear layer mixes the heads' outputs.

  The average is written twice. `attnR` divides each shifted exponential by the row sum and then averages;
  `attnK` averages the shifted exponentials and multiplies the result by the reciprocal of the row sum. They agree as
  soon as the row sum is a positive real number (the law is in the module on the softmax), which holds when every
  score is a real number.
-/
import Idealize.ShloMosaic.PureOps.Ideal
import Idealize.ShloMosaic.Lib.ValueIdx

noncomputable section

namespace Cert.Mha

open Idealize.ShloMosaic Idealize.ShloMosaic.ValueIdx

/-- Activations by coordinates: batch, position, model column. -/
abbrev Act := Fin 4 → Fin 2048 → Fin 1024 → EReal
/-- A weight matrix by coordinates: output column, input column. -/
abbrev Wgt := Fin 1024 → Fin 1024 → EReal
/-- A bias by its column. -/
abbrev Bias := Fin 1024 → EReal
/-- One row of scores, or one column of values, over the 2048 key positions. -/
abbrev Row := Fin 2048 → EReal

/-- The linear layer `x · Wᵀ + b`: output column `e` of row `(n, s)` is `∑ d, x n s d · W e d + b e`. -/
def proj (x : Act) (W : Wgt) (b : Bias) : Act := fun n s e => (∑ d : Fin 1024, x n s d * W e d) + b e

/-- Column `d` of head `h` among the model columns. -/
def col (h : Fin 16) (d : Fin 64) : Fin 1024 := ⟨h.val * 64 + d.val, by have := h.isLt; have := d.isLt; omega⟩

/-- The head a model column belongs to. -/
def headOf (e : Fin 1024) : Fin 16 := ⟨e.val / 64, by have := e.isLt; omega⟩

/-- Inside a block of 128 adjacent model columns (two adjacent heads), column `d` of the head that owns column `c`:
    the first head owns columns 0 … 63 of the block, the second 64 … 127. -/
def pairCol (c : Fin 128) (d : Fin 64) : Fin 128 := ⟨c.val / 64 * 64 + d.val, by have := c.isLt; have := d.isLt; omega⟩

/-- The scaled score of query position `q` against key position `k` in head `h` of batch `n`. -/
def score (Q K : Act) (n : Fin 4) (h : Fin 16) (q k : Fin 2048) : EReal :=
  (∑ d : Fin 64, Q n q (col h d) * K n k (col h d)) * ((1 / 8 : ℝ) : EReal)

/-- A row's maximum, as the fold of `max` from `⊥` over the key positions. -/
def rowMax (s : Row) : EReal := (Finset.univ : Finset (Fin 2048)).fold max ⊥ s

/-- The shifted exponential `exp (s k − max s)`. -/
def expShift (s : Row) (k : Fin 2048) : EReal := Ideal.exp (s k - rowMax s)

/-- The row sum of the shifted exponentials. -/
def denom (s : Row) : EReal := ∑ k : Fin 2048, expShift s k

/-- Normalise, then average: `∑ k, (exp (s k − max s) / denom s) · v k`. -/
def attnR (s v : Row) : EReal := ∑ k : Fin 2048, Ideal.div (expShift s k) (denom s) * v k

/-- Average, then scale by the reciprocal: `(∑ k, exp (s k − max s) · v k) · (1 / denom s)`. -/
def attnK (s v : Row) : EReal := (∑ k : Fin 2048, expShift s k * v k) * Ideal.div 1 (denom s)

/-- All heads at once: model column `e` of the output at `(n, q)` averages column `e` of the value rows with the
    weights of the head that owns `e`. -/
def heads (attn : Row → Row → EReal) (Q K V : Act) : Act :=
  fun n q e => attn (fun k => score Q K n (headOf e) q k) (fun k => V n k e)

/-- Multi-head attention: three input layers, the heads, the output layer. -/
def mha (attn : Row → Row → EReal) (xq xk xv : Act) (Wq : Wgt) (bq : Bias) (Wk : Wgt) (bk : Bias) (Wv : Wgt) (bv : Bias)
    (Wo : Wgt) (bo : Bias) : Act :=
  proj (heads attn (proj xq Wq bq) (proj xk Wk bk) (proj xv Wv bv)) Wo bo

/-! ## Arrays as functions of coordinates -/

abbrev SAct : Shape := ⟨3, ![4, 2048, 1024]⟩
abbrev SWgt : Shape := ⟨2, ![1024, 1024]⟩
abbrev SBias : Shape := ⟨1, ![1024]⟩

/-- An activation array read by coordinates. -/
def act (x : SAct.Idx → EReal) : Act := fun n s d => x (ix3 n s d)
/-- A weight array read by coordinates. -/
def wgt (x : SWgt.Idx → EReal) : Wgt := fun e d => x (ix2 e d)
/-- A bias array read by its column. -/
def bias (x : SBias.Idx → EReal) : Bias := fun e => x (ix1 e)

/-- The result array: `mha` of the eleven argument arrays, index by index. -/
def G (attn : Row → Row → EReal) (x0 x1 x2 : SAct.Idx → EReal) (x3 : SWgt.Idx → EReal) (x4 : SBias.Idx → EReal)
    (x5 : SWgt.Idx → EReal) (x6 : SBias.Idx → EReal) (x7 : SWgt.Idx → EReal) (x8 : SBias.Idx → EReal)
    (x9 : SWgt.Idx → EReal) (x10 : SBias.Idx → EReal) : SAct.Idx → EReal :=
  fun i => mha attn (act x0) (act x1) (act x2) (wgt x3) (bias x4) (wgt x5) (bias x6) (wgt x7) (bias x8) (wgt x9) (bias x10)
    (i 0) (i 1) (i 2)

end Cert.Mha

end
-- ==== Proof.Attn3.lean ====
/-
  The attention core as a grid kernel: its output array after the run is the attention of the three projected arrays.

  The grid has 4 × 8 × 4 points: a batch `n`, a pair of adjacent heads `P` (128 adjacent model columns) and a block of
  512 query positions. A point stages the 512 query rows and ALL 2048 key and value rows of batch `n`, each restricted
  to the pair's 128 columns, and writes back the 512 × 128 block of outputs. Within a pair the head that owns column
  `c` uses columns `c / 64 · 64 … c / 64 · 64 + 63` of the block, which are that head's 64 model columns; so what a
  point writes back is the matching block of ONE whole-array function — every head's averaged values, with the kernel's
  average-then-scale arrangement —, and the blocks tile the array. Stated for ANY contents `V` at the region's entry.
-/
import proofs.«143443_j37838661877847_2_alg».proof.Proof.Gen.KernelIdeal.Frame
import proofs.«143443_j37838661877847_2_alg».proof.Proof.Spec
import Idealize.ShloMosaic.Lib.Pipeline.Value

set_option maxRecDepth 16384

noncomputable section

namespace Cert.KernelIdeal.Attn3

open Cert.KernelIdeal Cert.KernelIdeal.Gen Cert.Mha
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin3 : (![0, 0, 0] : Fin 3 → Nat) = fun _ => 0 := funext fun a => by fin_cases a <;> rfl

/-- The attention core as ONE function of the three projected arrays: at batch `i 0`, position `i 1` and model
    column `i 2`, the owning head's average of the value column. -/
def core (q k v : S4x2048x1024.Idx → EReal) : S4x2048x1024.Idx → EReal :=
  fun i => heads attnK (act q) (act k) (act v) ⟨(i 0).val, (i 0).isLt⟩ ⟨(i 1).val, (i 1).isLt⟩ ⟨(i 2).val, (i 2).isLt⟩

/-- What the attention body stores at element (row `r`, column `c`) of its 512 × 128 block, as a function of the three
    staged blocks: the average-then-scale attention of row `r` of the query block against all 2048 key rows, over the 64
    columns of the head that owns `c`, applied to column `c` of the value block. (Proved of the body's pure term in the
    module on the attention body; taken here as a hypothesis so that the grid argument stands on its own.) -/
def BodyAt : Prop :=
  ∀ (x0 : Vec Ideal S1x512x128 .bf16) (x1 x2 : Vec Ideal S1x2048x128 .bf16) (r : Fin 512) (c : Fin 128),
    k3_pay1 (F := Ideal) (k3_pay5 x0 x1 x2) (k3_pay6 x2) (k3_pay7 x0 x1) (k3_pay8 x0 x1) (ix3 (0 : Fin 1) r c)
      = attnK (fun k : Fin 2048 => (∑ d : Fin 64, x0 (ix3 (0 : Fin 1) r (pairCol c d)) * x1 (ix3 (0 : Fin 1) k (pairCol c d))) * ((1 / 8 : ℝ) : EReal))
              (fun k : Fin 2048 => x2 (ix3 (0 : Fin 1) k c))

/-- The index maps over the 128 points: queries and outputs move together over batch, query block and head pair; keys
    and values follow the batch and the head pair and always start at key position 0. -/
theorem index_facts : ∀ t : Fin cfg3.N,
    win3_0.index t (0 : Fin 3) = win3_3.index t (0 : Fin 3) ∧ win3_0.index t (1 : Fin 3) = win3_3.index t (1 : Fin 3)
    ∧ win3_0.index t (2 : Fin 3) = win3_3.index t (2 : Fin 3)
    ∧ win3_1.index t (0 : Fin 3) = win3_3.index t (0 : Fin 3) ∧ win3_1.index t (1 : Fin 3) = 0
    ∧ win3_1.index t (2 : Fin 3) = win3_3.index t (2 : Fin 3)
    ∧ win3_2.index t (0 : Fin 3) = win3_3.index t (0 : Fin 3) ∧ win3_2.index t (1 : Fin 3) = 0
    ∧ win3_2.index t (2 : Fin 3) = win3_3.index t (2 : Fin 3)
    ∧ win3_3.index t (0 : Fin 3) ≤ 3 ∧ win3_3.index t (1 : Fin 3) ≤ 3 ∧ win3_3.index t (2 : Fin 3) ≤ 7 :=
  (by decide +kernel : ∀ t : Fin grid3.N, _)

/-- Every (batch, query block, head pair) is some point's. -/
theorem index_onto : ∀ (q0 : Fin 4) (q1 : Fin 4) (q2 : Fin 8), ∃ t : Fin cfg3.N, win3_3.index t = ![q0.val, q1.val, q2.val] :=
  (by decide +kernel : ∀ (q0 : Fin 4) (q1 : Fin 4) (q2 : Fin 8), ∃ t : Fin grid3.N, win3_3.index t = ![q0.val, q1.val, q2.val])

/-- What point `t` writes back is block `t` of the attention core of the projected arrays as the region finds them. -/
theorem flushed_eq (hbody : BodyAt) (c : Dev nD) (t : Fin cfg3.N) :
    (dat3 V c).flushed 3 t = ((cfg3.win 3).blk t).view.read (Elt Ideal)
      (core (V c main_v18) (V c main_v19) (V c main_v20)) := by
  show (cfg3.win 3).cut (grid3.coords t) ((dat3 V c).after 3 t) = _
  rw [after3_3]
  unfold out3_3
  rw [View.canon_unit_zero origin3]
  simp only [View.ld_unit_zero (S := S1x512x128) origin3, View.ld_unit_zero (S := S1x2048x128) origin3]
  obtain ⟨e0, e1, e2, e3, e4, e5, e6, e7, e8, e9, e10, e11⟩ := index_facts t
  funext j
  obtain ⟨z, r, cc, rfl⟩ : ∃ (z : Fin 1) (r : Fin 512) (cc : Fin 128), j = ix3 z r cc := ⟨j 0, j 1, j 2, eq_ix3 j⟩
  obtain rfl : z = 0 := Subsingleton.elim _ _
  show k3_pay1 (F := Ideal) (k3_pay5 (iblk3 V c 0 t) (iblk3 V c 1 t) (iblk3 V c 2 t)) (k3_pay6 (iblk3 V c 2 t))
        (k3_pay7 (iblk3 V c 0 t) (iblk3 V c 1 t)) (k3_pay8 (iblk3 V c 0 t) (iblk3 V c 1 t)) (ix3 (0 : Fin 1) r cc)
      = core (V c main_v18) (V c main_v19) (V c main_v20) (((cfg3.win 3).blk t).view.emb (ix3 (0 : Fin 1) r cc))
  refine (hbody _ _ _ r cc).trans ?_
  unfold core heads
  have hr : r.val < 512 := r.isLt
  have hc : cc.val < 128 := cc.isLt
  refine congrArg₂ attnK (funext fun k => ?_) (funext fun k => ?_)
  · unfold score
    refine congrArg (· * _) (Finset.sum_congr rfl fun d _ => congrArg₂ (· * ·) ?_ ?_)
    · show V c main_v18 (((cfg3.win 0).blk t).view.emb (ix3 (0 : Fin 1) r (pairCol cc d))) = V c main_v18 _
      refine congrArg _ (funext fun a => Fin.ext ?_)
      have hd : d.val < 64 := d.isLt
      match a with
      | ⟨0, _⟩ =>
        show win3_0.index t (0 : Fin 3) * 1 + 1 * 0 = win3_3.index t (0 : Fin 3) * 1 + 1 * 0
        omega
      | ⟨1, _⟩ =>
        show win3_0.index t (1 : Fin 3) * 512 + 1 * r.val = win3_3.index t (1 : Fin 3) * 512 + 1 * r.val
        omega
      | ⟨2, _⟩ =>
        show win3_0.index t (2 : Fin 3) * 128 + 1 * (cc.val / 64 * 64 + d.val)
          = (win3_3.index t (2 : Fin 3) * 128 + 1 * cc.val) / 64 * 64 + d.val
        omega
    · show V c main_v19 (((cfg3.win 1).blk t).view.emb (ix3 (0 : Fin 1) k (pairCol cc d))) = V c main_v19 _
      refine congrArg _ (funext fun a => Fin.ext ?_)
      have hd : d.val < 64 := d.isLt
      match a with
      | ⟨0, _⟩ =>
        show win3_1.index t (0 : Fin 3) * 1 + 1 * 0 = win3_3.index t (0 : Fin 3) * 1 + 1 * 0
        omega
      | ⟨1, _⟩ =>
        show win3_1.index t (1 : Fin 3) * 2048 + 1 * k.val = k.val
        omega
      | ⟨2, _⟩ =>
        show win3_1.index t (2 : Fin 3) * 128 + 1 * (cc.val / 64 * 64 + d.val)
          = (win3_3.index t (2 : Fin 3) * 128 + 1 * cc.val) / 64 * 64 + d.val
        omega
  · show V c main_v20 (((cfg3.win 2).blk t).view.emb (ix3 (0 : Fin 1) k cc)) = V c main_v20 _
    refine congrArg _ (funext fun a => Fin.ext ?_)
    match a with
    | ⟨0, _⟩ =>
      show win3_2.index t (0 : Fin 3) * 1 + 1 * 0 = win3_3.index t (0 : Fin 3) * 1 + 1 * 0
      omega
    | ⟨1, _⟩ =>
      show win3_2.index t (1 : Fin 3) * 2048 + 1 * k.val = k.val
      omega
    | ⟨2, _⟩ =>
      show win3_2.index t (2 : Fin 3) * 128 + 1 * cc.val = win3_3.index t (2 : Fin 3) * 128 + 1 * cc.val
      omega

/-- An index of the output array is in point `t`'s block iff each coordinate is in the block's range on its axis. -/
theorem mem_block (t : Fin cfg3.N) (i : S4x2048x1024.Idx) :
    i ∈ ((cfg3.win 3).blk t).view.set ↔ ∀ a : Fin 3, win3_3.index t a * S1x512x128.size a ≤ (i a).val
      ∧ (i a).val < win3_3.index t a * S1x512x128.size a + S1x512x128.size a := by
  show i ∈ ((View.whole main_v21).slice (win3_3.rect t)).set ↔ _
  rw [View.set_slice_whole, Rect.mem_set_unit]
  exact Iff.rfl

/-- The blocks tile the array: batch `n`, position `s`, column `e` lies in the block of (n, s / 512, e / 128). -/
theorem covered (i : S4x2048x1024.Idx) :
    ∃ t : Fin cfg3.N, (cfg3.win 3).flush t = true ∧ i ∈ ((cfg3.win 3).blk t).view.set := by
  have hi0 : (i 0).val < 4 := (i 0).isLt
  have hi1 : (i 1).val < 2048 := (i 1).isLt
  have hi2 : (i 2).val < 1024 := (i 2).isLt
  obtain ⟨t, ht⟩ := index_onto ⟨(i 0).val, by omega⟩ ⟨(i 1).val / 512, by omega⟩ ⟨(i 2).val / 128, by omega⟩
  have q0 : win3_3.index t (0 : Fin 3) = (i 0).val := congrFun ht 0
  have q1 : win3_3.index t (1 : Fin 3) = (i 1).val / 512 := congrFun ht 1
  have q2 : win3_3.index t (2 : Fin 3) = (i 2).val / 128 := congrFun ht 2
  refine ⟨t, flush3_3 t, ?_⟩
  rw [mem_block]
  intro a
  match a with
  | ⟨0, _⟩ =>
    show win3_3.index t (0 : Fin 3) * 1 ≤ (i 0).val ∧ (i 0).val < win3_3.index t (0 : Fin 3) * 1 + 1
    omega
  | ⟨1, _⟩ =>
    show win3_3.index t (1 : Fin 3) * 512 ≤ (i 1).val ∧ (i 1).val < win3_3.index t (1 : Fin 3) * 512 + 512
    omega
  | ⟨2, _⟩ =>
    show win3_3.index t (2 : Fin 3) * 128 ≤ (i 2).val ∧ (i 2).val < win3_3.index t (2 : Fin 3) * 128 + 128
    omega

/-- The output array after the region: the attention core of the projected arrays as the region finds them. -/
theorem final (hbody : BodyAt) (c : Dev nD) :
    (dat3 V c).arrAt 3 cfg3.N = core (V c main_v18) (V c main_v19) (V c main_v20) :=
  (dat3 V c).arrAt_eq_of_cover 3 _ (fun t _ => flushed_eq V hbody c t) covered

end Cert.KernelIdeal.Attn3

end
-- ==== Proof.Boundary.lean ====
/-
  What each buffer holds at each boundary between @main's segments, walked back to the launch memory.

  The first host stretch leaves, for each input, its 8192 flattened rows; for each weight matrix, its transpose
  (narrowing to bf16 changes nothing on extended reals); for each bias, a row. No later segment writes those, so each
  grid kernel finds them as the first stretch left them. Each input layer leaves its output array at the layer of its
  operands; the reshapes before the attention core leave them as [4, 2048, 1024] arrays; the core leaves the heads'
  averaged values; one reshape flattens them again; the output layer leaves its layer; the last reshape gives the
  result its [4, 2048, 1024] shape.
-/
import proofs.«143443_j37838661877847_2_alg».proof.Proof.Run
import proofs.«143443_j37838661877847_2_alg».proof.Proof.Layer0
import proofs.«143443_j37838661877847_2_alg».proof.Proof.Layer1
import proofs.«143443_j37838661877847_2_alg».proof.Proof.Layer2
import proofs.«143443_j37838661877847_2_alg».proof.Proof.Layer4
import proofs.«143443_j37838661877847_2_alg».proof.Proof.Attn3
import Idealize.ShloMosaic.Lib.StableHlo.Run

set_option maxRecDepth 16384

noncomputable section

namespace Cert.KernelIdeal.Boundary

open Cert.KernelIdeal Cert.KernelIdeal.Gen Cert.KernelIdeal.ProjBody
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first host stretch -/

theorem W1_v12 (c : Dev nD) : (W1 m ρ c (Proc.devRef .tc main_v12) : S8192x1024.Idx → EReal) = (shapeCast S8192x1024 (m ((c : Thread nD τ).loc main_arg0)) shapeCasts_S4x2048x1024_S8192x1024) := by
  show StableHlo.after hostOps0 (W0 m ρ c) (Proc.devRef .tc main_v12) = _
  after_results
  rfl
theorem W1_v13 (c : Dev nD) : (W1 m ρ c (Proc.devRef .tc main_v13) : S8192x1024.Idx → EReal) = (shapeCast S8192x1024 (m ((c : Thread nD τ).loc main_arg1)) shapeCasts_S4x2048x1024_S8192x1024) := by
  show StableHlo.after hostOps0 (W0 m ρ c) (Proc.devRef .tc main_v13) = _
  after_results
  rfl
theorem W1_v14 (c : Dev nD) : (W1 m ρ c (Proc.devRef .tc main_v14) : S8192x1024.Idx → EReal) = (shapeCast S8192x1024 (m ((c : Thread nD τ).loc main_arg2)) shapeCasts_S4x2048x1024_S8192x1024) := by
  show StableHlo.after hostOps0 (W0 m ρ c) (Proc.devRef .tc main_v14) = _
  after_results
  rfl
theorem W1_v1 (c : Dev nD) : (W1 m ρ c (Proc.devRef .tc main_v1) : S1024x1024.Idx → EReal) = (transpose S1024x1024 [1, 0] (m ((c : Thread nD τ).loc main_arg3)) transposes_S1024x1024_S1024x1024_1_0) := by
  show StableHlo.after hostOps0 (W0 m ρ c) (Proc.devRef .tc main_v1) = _
  after_results
  rfl
theorem W1_v3 (c : Dev nD) : (W1 m ρ c (Proc.devRef .tc main_v3) : S1024x1024.Idx → EReal) = (transpose S1024x1024 [1, 0] (m ((c : Thread nD τ).loc main_arg5)) transposes_S1024x1024_S1024x1024_1_0) := by
  show StableHlo.after hostOps0 (W0 m ρ c) (Proc.devRef .tc main_v3) = _
  after_results
  rfl
theorem W1_v5 (c : Dev nD) : (W1 m ρ c (Proc.devRef .tc main_v5) : S1024x1024.Idx → EReal) = (transpose S1024x1024 [1, 0] (m ((c : Thread nD τ).loc main_arg7)) transposes_S1024x1024_S1024x1024_1_0) := by
  show StableHlo.after hostOps0 (W0 m ρ c) (Proc.devRef .tc main_v5) = _
  after_results
  rfl
theorem W1_v7 (c : Dev nD) : (W1 m ρ c (Proc.devRef .tc main_v7) : S1024x1024.Idx → EReal) = (transpose S1024x1024 [1, 0] (m ((c : Thread nD τ).loc main_arg9)) transposes_S1024x1024_S1024x1024_1_0) := by
  show StableHlo.after hostOps0 (W0 m ρ c) (Proc.devRef .tc main_v7) = _
  after_results
  rfl
theorem W1_v8 (c : Dev nD) : (W1 m ρ c (Proc.devRef .tc main_v8) : S1x1024.Idx → EReal) = (shapeCast S1x1024 (m ((c : Thread nD τ).loc main_arg4)) shapeCasts_S1024_S1x1024) := by
  show StableHlo.after hostOps0 (W0 m ρ c) (Proc.devRef .tc main_v8) = _
  after_results
  rfl
theorem W1_v9 (c : Dev nD) : (W1 m ρ c (Proc.devRef .tc main_v9) : S1x1024.Idx → EReal) = (shapeCast S1x1024 (m ((c : Thread nD τ).loc main_arg6)) shapeCasts_S1024_S1x1024) := by
  show StableHlo.after hostOps0 (W0 m ρ c) (Proc.devRef .tc main_v9) = _
  after_results
  rfl
theorem W1_v10 (c : Dev nD) : (W1 m ρ c (Proc.devRef .tc main_v10) : S1x1024.Idx → EReal) = (shapeCast S1x1024 (m ((c : Thread nD τ).loc main_arg8)) shapeCasts_S1024_S1x1024) := by
  show StableHlo.after hostOps0 (W0 m ρ c) (Proc.devRef .tc main_v10) = _
  after_results
  rfl
theorem W1_v11 (c : Dev nD) : (W1 m ρ c (Proc.devRef .tc main_v11) : S1x1024.Idx → EReal) = (shapeCast S1x1024 (m ((c : Thread nD τ).loc main_arg10)) shapeCasts_S1024_S1x1024) := by
  show StableHlo.after hostOps0 (W0 m ρ c) (Proc.devRef .tc main_v11) = _
  after_results
  rfl

/-! ## Buffers a grid kernel does not write keep their contents across it -/

theorem W2_keep_v13 (c : Dev nD) : W2 m ρ c (Proc.devRef .tc main_v13) = W1 m ρ c (Proc.devRef .tc main_v13) := W2_of_ne m ρ c main_v13 (by decide)
theorem W2_keep_v3 (c : Dev nD) : W2 m ρ c (Proc.devRef .tc main_v3) = W1 m ρ c (Proc.devRef .tc main_v3) := W2_of_ne m ρ c main_v3 (by decide)
theorem W2_keep_v9 (c : Dev nD) : W2 m ρ c (Proc.devRef .tc main_v9) = W1 m ρ c (Proc.devRef .tc main_v9) := W2_of_ne m ρ c main_v9 (by decide)
theorem W2_keep_v14 (c : Dev nD) : W2 m ρ c (Proc.devRef .tc main_v14) = W1 m ρ c (Proc.devRef .tc main_v14) := W2_of_ne m ρ c main_v14 (by decide)
theorem W2_keep_v5 (c : Dev nD) : W2 m ρ c (Proc.devRef .tc main_v5) = W1 m ρ c (Proc.devRef .tc main_v5) := W2_of_ne m ρ c main_v5 (by decide)
theorem W2_keep_v10 (c : Dev nD) : W2 m ρ c (Proc.devRef .tc main_v10) = W1 m ρ c (Proc.devRef .tc main_v10) := W2_of_ne m ρ c main_v10 (by decide)
theorem W2_keep_v7 (c : Dev nD) : W2 m ρ c (Proc.devRef .tc main_v7) = W1 m ρ c (Proc.devRef .tc main_v7) := W2_of_ne m ρ c main_v7 (by decide)
theorem W2_keep_v11 (c : Dev nD) : W2 m ρ c (Proc.devRef .tc main_v11) = W1 m ρ c (Proc.devRef .tc main_v11) := W2_of_ne m ρ c main_v11 (by decide)
theorem W3_keep_v15 (c : Dev nD) : W3 m ρ c (Proc.devRef .tc main_v15) = W2 m ρ c (Proc.devRef .tc main_v15) := W3_of_ne m ρ c main_v15 (by decide)
theorem W3_keep_v14 (c : Dev nD) : W3 m ρ c (Proc.devRef .tc main_v14) = W2 m ρ c (Proc.devRef .tc main_v14) := W3_of_ne m ρ c main_v14 (by decide)
theorem W3_keep_v5 (c : Dev nD) : W3 m ρ c (Proc.devRef .tc main_v5) = W2 m ρ c (Proc.devRef .tc main_v5) := W3_of_ne m ρ c main_v5 (by decide)
theorem W3_keep_v10 (c : Dev nD) : W3 m ρ c (Proc.devRef .tc main_v10) = W2 m ρ c (Proc.devRef .tc main_v10) := W3_of_ne m ρ c main_v10 (by decide)
theorem W3_keep_v7 (c : Dev nD) : W3 m ρ c (Proc.devRef .tc main_v7) = W2 m ρ c (Proc.devRef .tc main_v7) := W3_of_ne m ρ c main_v7 (by decide)
theorem W3_keep_v11 (c : Dev nD) : W3 m ρ c (Proc.devRef .tc main_v11) = W2 m ρ c (Proc.devRef .tc main_v11) := W3_of_ne m ρ c main_v11 (by decide)
theorem W4_keep_v15 (c : Dev nD) : W4 m ρ c (Proc.devRef .tc main_v15) = W3 m ρ c (Proc.devRef .tc main_v15) := W4_of_ne m ρ c main_v15 (by decide)
theorem W4_keep_v16 (c : Dev nD) : W4 m ρ c (Proc.devRef .tc main_v16) = W3 m ρ c (Proc.devRef .tc main_v16) := W4_of_ne m ρ c main_v16 (by decide)
theorem W4_keep_v7 (c : Dev nD) : W4 m ρ c (Proc.devRef .tc main_v7) = W3 m ρ c (Proc.devRef .tc main_v7) := W4_of_ne m ρ c main_v7 (by decide)
theorem W4_keep_v11 (c : Dev nD) : W4 m ρ c (Proc.devRef .tc main_v11) = W3 m ρ c (Proc.devRef .tc main_v11) := W4_of_ne m ρ c main_v11 (by decide)
theorem W6_keep_v7 (c : Dev nD) : W6 m ρ c (Proc.devRef .tc main_v7) = W5 m ρ c (Proc.devRef .tc main_v7) := W6_of_ne m ρ c main_v7 (by decide)
theorem W6_keep_v11 (c : Dev nD) : W6 m ρ c (Proc.devRef .tc main_v11) = W5 m ρ c (Proc.devRef .tc main_v11) := W6_of_ne m ρ c main_v11 (by decide)

/-- A host stretch that only reshapes other buffers leaves these two as they were. -/
theorem W5_keep_v7 (c : Dev nD) : W5 m ρ c (Proc.devRef .tc main_v7) = W4 m ρ c (Proc.devRef .tc main_v7) := by
  show StableHlo.after hostOps3 (W4 m ρ c) (Proc.devRef .tc main_v7) = _
  after_results
theorem W5_keep_v11 (c : Dev nD) : W5 m ρ c (Proc.devRef .tc main_v11) = W4 m ρ c (Proc.devRef .tc main_v11) := by
  show StableHlo.after hostOps3 (W4 m ρ c) (Proc.devRef .tc main_v11) = _
  after_results
theorem W7_keep_v7 (c : Dev nD) : W7 m ρ c (Proc.devRef .tc main_v7) = W6 m ρ c (Proc.devRef .tc main_v7) := by
  show StableHlo.after hostOps4 (W6 m ρ c) (Proc.devRef .tc main_v7) = _
  after_results
theorem W7_keep_v11 (c : Dev nD) : W7 m ρ c (Proc.devRef .tc main_v11) = W6 m ρ c (Proc.devRef .tc main_v11) := by
  show StableHlo.after hostOps4 (W6 m ρ c) (Proc.devRef .tc main_v11) = _
  after_results

/-! ## The three projected arrays, flattened, as the third input layer leaves them -/

/-- The query projection on the flattened rows, of the launch memory. -/
def Qf (c : Dev nD) : S8192x1024.Idx → EReal := layer (shapeCast S8192x1024 (m ((c : Thread nD τ).loc main_arg0)) shapeCasts_S4x2048x1024_S8192x1024) (transpose S1024x1024 [1, 0] (m ((c : Thread nD τ).loc main_arg3)) transposes_S1024x1024_S1024x1024_1_0) (shapeCast S1x1024 (m ((c : Thread nD τ).loc main_arg4)) shapeCasts_S1024_S1x1024)
/-- The key projection on the flattened rows. -/
def Kf (c : Dev nD) : S8192x1024.Idx → EReal := layer (shapeCast S8192x1024 (m ((c : Thread nD τ).loc main_arg1)) shapeCasts_S4x2048x1024_S8192x1024) (transpose S1024x1024 [1, 0] (m ((c : Thread nD τ).loc main_arg5)) transposes_S1024x1024_S1024x1024_1_0) (shapeCast S1x1024 (m ((c : Thread nD τ).loc main_arg6)) shapeCasts_S1024_S1x1024)
/-- The value projection on the flattened rows. -/
def Vf (c : Dev nD) : S8192x1024.Idx → EReal := layer (shapeCast S8192x1024 (m ((c : Thread nD τ).loc main_arg2)) shapeCasts_S4x2048x1024_S8192x1024) (transpose S1024x1024 [1, 0] (m ((c : Thread nD τ).loc main_arg7)) transposes_S1024x1024_S1024x1024_1_0) (shapeCast S1x1024 (m ((c : Thread nD τ).loc main_arg8)) shapeCasts_S1024_S1x1024)

theorem W4_v15 (c : Dev nD) : (W4 m ρ c (Proc.devRef .tc main_v15) : S8192x1024.Idx → EReal) = Qf m c := by
  rw [W4_keep_v15, W3_keep_v15]
  refine ((W2_arr m ρ c 3).trans (Layer0.final (V1 m ρ) c)).trans ?_
  show layer (W1 m ρ c (Proc.devRef .tc main_v12)) (W1 m ρ c (Proc.devRef .tc main_v1)) (W1 m ρ c (Proc.devRef .tc main_v8)) = _
  rw [W1_v12, W1_v1, W1_v8]
  rfl

theorem W4_v16 (c : Dev nD) : (W4 m ρ c (Proc.devRef .tc main_v16) : S8192x1024.Idx → EReal) = Kf m c := by
  rw [W4_keep_v16]
  refine ((W3_arr m ρ c 3).trans (Layer1.final (V2 m ρ) c)).trans ?_
  show layer (W2 m ρ c (Proc.devRef .tc main_v13)) (W2 m ρ c (Proc.devRef .tc main_v3)) (W2 m ρ c (Proc.devRef .tc main_v9)) = _
  rw [W2_keep_v13, W2_keep_v3, W2_keep_v9, W1_v13, W1_v3, W1_v9]
  rfl

theorem W4_v17 (c : Dev nD) : (W4 m ρ c (Proc.devRef .tc main_v17) : S8192x1024.Idx → EReal) = Vf m c := by
  refine ((W4_arr m ρ c 3).trans (Layer2.final (V3 m ρ) c)).trans ?_
  show layer (W3 m ρ c (Proc.devRef .tc main_v14)) (W3 m ρ c (Proc.devRef .tc main_v5)) (W3 m ρ c (Proc.devRef .tc main_v10)) = _
  rw [W3_keep_v14, W3_keep_v5, W3_keep_v10, W2_keep_v14, W2_keep_v5, W2_keep_v10, W1_v14, W1_v5, W1_v10]
  rfl

/-! ## The attention core's operands and result -/

theorem W5_v18 (c : Dev nD) : (W5 m ρ c (Proc.devRef .tc main_v18) : S4x2048x1024.Idx → EReal)
    = shapeCast S4x2048x1024 (Qf m c) shapeCasts_S8192x1024_S4x2048x1024 := by
  rw [← W4_v15 m ρ]
  show StableHlo.after hostOps3 (W4 m ρ c) (Proc.devRef .tc main_v18) = _
  after_results
  rfl
theorem W5_v19 (c : Dev nD) : (W5 m ρ c (Proc.devRef .tc main_v19) : S4x2048x1024.Idx → EReal)
    = shapeCast S4x2048x1024 (Kf m c) shapeCasts_S8192x1024_S4x2048x1024 := by
  rw [← W4_v16 m ρ]
  show StableHlo.after hostOps3 (W4 m ρ c) (Proc.devRef .tc main_v19) = _
  after_results
  rfl
theorem W5_v20 (c : Dev nD) : (W5 m ρ c (Proc.devRef .tc main_v20) : S4x2048x1024.Idx → EReal)
    = shapeCast S4x2048x1024 (Vf m c) shapeCasts_S8192x1024_S4x2048x1024 := by
  rw [← W4_v17 m ρ]
  show StableHlo.after hostOps3 (W4 m ρ c) (Proc.devRef .tc main_v20) = _
  after_results
  rfl

/-- The heads' averaged values, of the launch memory. -/
def O3 (c : Dev nD) : S4x2048x1024.Idx → EReal :=
  Attn3.core (shapeCast S4x2048x1024 (Qf m c) shapeCasts_S8192x1024_S4x2048x1024)
    (shapeCast S4x2048x1024 (Kf m c) shapeCasts_S8192x1024_S4x2048x1024)
    (shapeCast S4x2048x1024 (Vf m c) shapeCasts_S8192x1024_S4x2048x1024)

theorem W6_v21 (hbody : Attn3.BodyAt) (c : Dev nD) : (W6 m ρ c (Proc.devRef .tc main_v21) : S4x2048x1024.Idx → EReal) = O3 m c := by
  refine ((W6_arr m ρ c 3).trans (Attn3.final (V5 m ρ) hbody c)).trans ?_
  show Attn3.core (W5 m ρ c (Proc.devRef .tc main_v18)) (W5 m ρ c (Proc.devRef .tc main_v19)) (W5 m ρ c (Proc.devRef .tc main_v20)) = _
  rw [W5_v18, W5_v19, W5_v20]
  rfl

/-! ## The output layer and the result -/

theorem W7_v22 (hbody : Attn3.BodyAt) (c : Dev nD) : (W7 m ρ c (Proc.devRef .tc main_v22) : S8192x1024.Idx → EReal)
    = shapeCast S8192x1024 (O3 m c) shapeCasts_S4x2048x1024_S8192x1024 := by
  rw [← W6_v21 m ρ hbody]
  show StableHlo.after hostOps4 (W6 m ρ c) (Proc.devRef .tc main_v22) = _
  after_results
  rfl

theorem W7_v7 (c : Dev nD) : (W7 m ρ c (Proc.devRef .tc main_v7) : S1024x1024.Idx → EReal) = (transpose S1024x1024 [1, 0] (m ((c : Thread nD τ).loc main_arg9)) transposes_S1024x1024_S1024x1024_1_0) := by
  rw [W7_keep_v7, W6_keep_v7, W5_keep_v7, W4_keep_v7, W3_keep_v7, W2_keep_v7, W1_v7]
theorem W7_v11 (c : Dev nD) : (W7 m ρ c (Proc.devRef .tc main_v11) : S1x1024.Idx → EReal) = (shapeCast S1x1024 (m ((c : Thread nD τ).loc main_arg10)) shapeCasts_S1024_S1x1024) := by
  rw [W7_keep_v11, W6_keep_v11, W5_keep_v11, W4_keep_v11, W3_keep_v11, W2_keep_v11, W1_v11]

/-- The output layer on the flattened rows, of the launch memory. -/
def Rf (c : Dev nD) : S8192x1024.Idx → EReal :=
  layer (shapeCast S8192x1024 (O3 m c) shapeCasts_S4x2048x1024_S8192x1024) (transpose S1024x1024 [1, 0] (m ((c : Thread nD τ).loc main_arg9)) transposes_S1024x1024_S1024x1024_1_0) (shapeCast S1x1024 (m ((c : Thread nD τ).loc main_arg10)) shapeCasts_S1024_S1x1024)

theorem W8_v23 (hbody : Attn3.BodyAt) (c : Dev nD) : (W8 m ρ c (Proc.devRef .tc main_v23) : S8192x1024.Idx → EReal) = Rf m c := by
  refine ((W8_arr m ρ c 3).trans (Layer4.final (V7 m ρ) c)).trans ?_
  show layer (W7 m ρ c (Proc.devRef .tc main_v22)) (W7 m ρ c (Proc.devRef .tc main_v7)) (W7 m ρ c (Proc.devRef .tc main_v11)) = _
  rw [W7_v22 m ρ hbody, W7_v7, W7_v11]
  rfl

/-- The result buffer at the return: the output layer's flattened rows given their [4, 2048, 1024] shape. -/
theorem W9_v24 (hbody : Attn3.BodyAt) (c : Dev nD) : (W9 m ρ c (Proc.devRef .tc main_v24) : S4x2048x1024.Idx → EReal)
    = shapeCast S4x2048x1024 (Rf m c) shapeCasts_S8192x1024_S4x2048x1024 := by
  rw [← W8_v23 m ρ hbody]
  show StableHlo.after hostOps5 (W8 m ρ c) (Proc.devRef .tc main_v24) = _
  after_results
  rfl

end Cert.KernelIdeal.Boundary

end
-- ==== Proof.Flat.lean ====
/-
  A linear layer on the flattened rows is the layer on (batch, position).

  An activation array [4, 2048, 1024] is reshaped to 8192 rows [8192, 1024]; row-major order puts (batch `n`,
  position `s`) at row `n · 2048 + s`, and reshaping back reads the same row. The weight matrix [out, in] is
  transposed to [in, out], so its entry at (input column `k`, output column `e`) is the original entry at `(e, k)`;
  the bias [1024] becomes the single row of a [1, 1024] array. Read at one element, the layer on the flattened rows is
  therefore `∑ k, x n s k · W e k + b e`: the linear layer `x · Wᵀ + b` on (batch, position).
-/
import proofs.«143443_j37838661877847_2_alg».proof.Proof.ProjBody
import proofs.«143443_j37838661877847_2_alg».proof.Proof.Spec
import Idealize.ShloMosaic.Lib.ValueIdx
import Idealize.ShloMosaic.Lib.Pipeline.Value

noncomputable section

namespace Cert.KernelIdeal.Flat

open Cert.KernelIdeal Cert.KernelIdeal.ProjBody Cert.Mha Idealize.ShloMosaic Idealize.ShloMosaic.ValueIdx

/-- Flattening: row `n · 2048 + s` of the reshaped array is row `(n, s)` of the original (both sit at row-major
    position `(n · 2048 + s) · 1024 + k`). -/
theorem flat_rows (a : S4x2048x1024.Idx → EReal) (h : S4x2048x1024.ShapeCasts S8192x1024) (n : Fin 4) (s : Fin 2048)
    (k : Fin 1024) :
    shapeCast S8192x1024 a h (ix2 (n0 := 8192) (n1 := 1024)
      ⟨n.val * 2048 + s.val, by have := n.isLt; have := s.isLt; omega⟩ k) = a (ix3 n s k) :=
  shapeCast_apply a h _ (ix3 n s k) (by
    rw [Shape.rowMajor_val_three, Shape.rowMajor_val_two]
    show (n.val * 2048 + s.val) * 1024 + k.val = (n.val * 2048 + s.val) * 1024 + k.val
    rfl)

/-- Unflattening: entry `(n, s, e)` of the array reshaped back is entry `e` of row `n · 2048 + s`. -/
theorem unflat_rows (f : S8192x1024.Idx → EReal) (h : S8192x1024.ShapeCasts S4x2048x1024) (n : Fin 4) (s : Fin 2048)
    (e : Fin 1024) :
    shapeCast S4x2048x1024 f h (ix3 n s e) = f (ix2 (n0 := 8192) (n1 := 1024)
      ⟨n.val * 2048 + s.val, by have := n.isLt; have := s.isLt; omega⟩ e) :=
  shapeCast_apply f h (ix3 n s e) _ (by
    rw [Shape.rowMajor_val_two, Shape.rowMajor_val_three]
    show (n.val * 2048 + s.val) * 1024 + e.val = (n.val * 2048 + s.val) * 1024 + e.val
    rfl)

/-- The transposed weight matrix at (input column `k`, output column `e`) is the original at `(e, k)`. -/
theorem weight_T (w : S1024x1024.Idx → EReal) (h : S1024x1024.Transposes [1, 0] S1024x1024) (k e : Fin 1024) :
    transpose S1024x1024 [1, 0] w h (ix2 k e) = w (ix2 e k) :=
  transpose_apply [1, 0] w h (ix2 k e) (ix2 e k) (fun b => match b with | ⟨0, _⟩ => rfl | ⟨1, _⟩ => rfl)

/-- The bias as a single row: column `e` of the row is entry `e` of the bias. -/
theorem bias_row (b : S1024.Idx → EReal) (h : S1024.ShapeCasts S1x1024) (e : Fin 1024) :
    shapeCast S1x1024 b h (ix2 (0 : Fin 1) e) = b (ix1 e) :=
  shapeCast_apply b h _ (ix1 e) (by
    rw [Shape.rowMajor_val_one, Shape.rowMajor_val_two]
    show e.val = 0 * 1024 + e.val
    omega)

/-- The layer on the flattened rows, reshaped back, is the linear layer `x · Wᵀ + b` on (batch, position). -/
theorem layer_flat (a : S4x2048x1024.Idx → EReal) (w : S1024x1024.Idx → EReal) (b : S1024.Idx → EReal)
    (h1 : S4x2048x1024.ShapeCasts S8192x1024) (ht : S1024x1024.Transposes [1, 0] S1024x1024)
    (h2 : S1024.ShapeCasts S1x1024) (h3 : S8192x1024.ShapeCasts S4x2048x1024) :
    act (shapeCast S4x2048x1024
        (layer (shapeCast S8192x1024 a h1) (transpose S1024x1024 [1, 0] w ht) (shapeCast S1x1024 b h2)) h3)
      = proj (act a) (wgt w) (bias b) := by
  funext n s e
  show shapeCast S4x2048x1024
      (layer (shapeCast S8192x1024 a h1) (transpose S1024x1024 [1, 0] w ht) (shapeCast S1x1024 b h2)) h3 (ix3 n s e)
    = (∑ d : Fin 1024, a (ix3 n s d) * w (ix2 e d)) + b (ix1 e)
  rw [unflat_rows]
  show (∑ k : Fin 1024, shapeCast S8192x1024 a h1 (ix2 (n0 := 8192) (n1 := 1024)
        ⟨n.val * 2048 + s.val, by have := n.isLt; have := s.isLt; omega⟩ k)
        * transpose S1024x1024 [1, 0] w ht (ix2 k e))
      + shapeCast S1x1024 b h2 (ix2 (0 : Fin 1) e) = _
  rw [bias_row]
  refine congrArg (· + b (ix1 e)) (Finset.sum_congr rfl fun k _ => ?_)
  rw [flat_rows, weight_T]

end Cert.KernelIdeal.Flat

end
-- ==== Proof.KernelValue.lean ====
/-
  The idealized kernel's result is multi-head attention of its arguments, in the average-then-scale arrangement.

  The boundary contents give the result buffer as: the output layer on the flattened rows of the attention core of the
  three input layers, each layer on flattened rows and reshaped back. A layer on flattened rows, reshaped back, is the
  layer by (batch, position, column); the attention core read by coordinates is the heads' attention; so the result is
  `G attnK` of the eleven argument arrays. The run is then re-posted with that equation.
-/
import proofs.«143443_j37838661877847_2_alg».proof.Proof.Boundary
import proofs.«143443_j37838661877847_2_alg».proof.Proof.Flat
import proofs.«143443_j37838661877847_2_alg».proof.Proof.Spec

set_option maxRecDepth 16384

noncomputable section

namespace Cert.KernelIdeal.Whole

open Cert.KernelIdeal Cert.KernelIdeal.Gen Cert.KernelIdeal.ProjBody Cert.KernelIdeal.Boundary Cert.Mha
open Idealize.ShloMosaic Idealize.ShloMosaic.TcCoe Idealize.SL.Sem Idealize.ShloMosaic.ValueIdx

variable (m : (ℓ : Loc nD τ sig) → Buf (Elt Ideal) ℓ) (ρ : Dev nD → PrngReg)

/-- The attention core read by coordinates is the heads' attention of its operands read by coordinates. -/
theorem act_core (q k v : S4x2048x1024.Idx → EReal) : act (Attn3.core q k v) = heads attnK (act q) (act k) (act v) := by
  funext n s e
  rfl

/-- The heads' averaged values, by coordinates: the attention of the three input layers. -/
theorem act_O3 (c : Dev nD) :
    act (O3 m c) = heads attnK
      (proj (act (m ((c : Thread nD τ).loc main_arg0))) (wgt (m ((c : Thread nD τ).loc main_arg3))) (bias (m ((c : Thread nD τ).loc main_arg4))))
      (proj (act (m ((c : Thread nD τ).loc main_arg1))) (wgt (m ((c : Thread nD τ).loc main_arg5))) (bias (m ((c : Thread nD τ).loc main_arg6))))
      (proj (act (m ((c : Thread nD τ).loc main_arg2))) (wgt (m ((c : Thread nD τ).loc main_arg7))) (bias (m ((c : Thread nD τ).loc main_arg8)))) := by
  unfold O3
  rw [act_core]
  unfold Qf Kf Vf
  rw [Flat.layer_flat, Flat.layer_flat, Flat.layer_flat]

/-- The result buffer at the return holds `G attnK` of the argument arrays. -/
theorem result_eq (hbody : Attn3.BodyAt) (c : Dev nD) :
    (W9 m ρ c (Proc.devRef .tc main_v24) : S4x2048x1024.Idx → EReal) = G attnK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W9_v24 m ρ hbody]
  funext i
  obtain ⟨n, s, e, rfl⟩ : ∃ (n : Fin 4) (s : Fin 2048) (e : Fin 1024), i = ix3 n s e := ⟨i 0, i 1, i 2, eq_ix3 i⟩
  show act (shapeCast S4x2048x1024 (Rf m c) shapeCasts_S8192x1024_S4x2048x1024) n s e
    = mha attnK (act (m ((c : Thread nD τ).loc main_arg0))) (act (m ((c : Thread nD τ).loc main_arg1))) (act (m ((c : Thread nD τ).loc main_arg2)))
        (wgt (m ((c : Thread nD τ).loc main_arg3))) (bias (m ((c : Thread nD τ).loc main_arg4)))
        (wgt (m ((c : Thread nD τ).loc main_arg5))) (bias (m ((c : Thread nD τ).loc main_arg6)))
        (wgt (m ((c : Thread nD τ).loc main_arg7))) (bias (m ((c : Thread nD τ).loc main_arg8)))
        (wgt (m ((c : Thread nD τ).loc main_arg9))) (bias (m ((c : Thread nD τ).loc main_arg10))) n s e
  unfold Rf
  rw [Flat.layer_flat, act_O3]
  rfl

/-- The whole run, with the result at `G attnK` of the arguments and the arguments unchanged. -/
theorem run_value (hbody : Attn3.BodyAt) : θ_run defs (onTc (τ := τ) (main (F := Ideal))) ⟨m, fun _ => 0, ρ⟩ (fun r => ∀ c : Dev nD,
      r.2.mem ((c.tc : Thread nD τ).loc main_v24) = G attnK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ hbody c), (h c).2⟩) (run_result m ρ)

end Cert.KernelIdeal.Whole

end
-- ==== Proof.Consts.lean ====
/-
  The float literals the two programs spell, as the extended reals their bit patterns denote: the kernel's score
  scale `0.125` is exactly the real `1/8`, the reference's divisor `8.0` the real `8`, the kernel's `1.0` the
  real `1`, and the initial value `0xFF800000` of both row maxima is `−∞`, the bottom of the extended reals.
  (The zero pattern is the library's `Ideal.ofBits_zero_f32`.)
-/
import Idealize.ShloMosaic.PureOps.Ideal

noncomputable section

namespace Cert.Mha.Consts

open Idealize.ShloMosaic

/-- `0.125` denotes `1/8`. -/
theorem ofBits_eighth : Ideal.ofBits .f32 0x3E000000#32 = ((1 / 8 : ℝ) : EReal) := by
  simp [Ideal.ofBits, Ideal.ieee, -EReal.coe_mul]; norm_num

/-- `8.0` denotes `8`. -/
theorem ofBits_eight : Ideal.ofBits .f32 0x41000000#32 = ((8 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- The pattern of `−∞` denotes `⊥`. -/
theorem ofBits_neg_inf : Ideal.ofBits .f32 0xFF800000#32 = ⊥ := by
  simp [Ideal.ofBits, Ideal.ieee]

end Cert.Mha.Consts

end
-- ==== Proof.AttnBody.lean ====
/-
  The attention body at an index.

  The kernel's body holds a block of 512 query rows and all 2048 key and value rows of two adjacent heads, side by
  side in 128 columns: columns 0 … 63 belong to the first head, 64 … 127 to the second. For each head it takes the
  64-column slices of the three blocks, forms the scores (query row against key row, contracted over the 64 columns,
  times 1/8), subtracts each row's maximum, exponentiates, sums each row, averages the value rows with the
  exponentials as weights and multiplies the result by the reciprocal of the row sum. The two heads' results are put
  side by side again and stored.

  This module reads that stored term at one element `(r, c)` of its block, over the extended reals: it is
  `attnK s v`, where `s` is the row of scaled scores of query row `r` inside the head that owns column `c` and `v`
  is column `c` of the values. Only the pure term is treated: each operation is read at an index (a matrix product
  as a finite sum over its contraction coordinate, a row reduction as a sum or a fold of `max` over the row, the
  layout operations as a change of coordinates, the changes of float format as the identity), one head is computed
  once over arbitrary 64-column operands, and the two halves of the block are instances of it.
-/
import proofs.«143443_j37838661877847_2_alg».proof.Proof.Gen.KernelIdeal.Skeleton
import proofs.«143443_j37838661877847_2_alg».proof.Proof.Spec
import proofs.«143443_j37838661877847_2_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AttnBody

open Cert.KernelIdeal Cert.KernelIdeal.Gen Idealize.ShloMosaic Idealize.ShloMosaic.ValueIdx Cert.Mha

/-! ## The two matrix products at an index -/

theorem scores_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem scores_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem scores_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem scores_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score product: a query row against a key row, contracted over the head's 64 columns. -/
theorem scores_apply (q64 : FVec Ideal S512x64 .bf16) (k64 : FVec Ideal S2048x64 .bf16) (r : Fin 512) (k : Fin 2048) :
    matmul dot_S512x64_S2048x64_S512x2048_1_1_0_0_n_n none q64 k64 (constant (F := Ideal) S512x2048 .f32 0x00000000#32) (ix2 r k)
      = ∑ e : Fin 64, q64 (ix2 r e) * k64 (ix2 k e) := by
  refine (Ideal.matmul_constant_zero_apply dot_S512x64_S2048x64_S512x2048_1_1_0_0_n_n none q64 k64 (ix2 r k)).trans ?_
  rw [← Equiv.sum_comp (ValueIdx.contrEquiv1 dot_S512x64_S2048x64_S512x2048_1_1_0_0_n_n 64 rfl rfl).symm]
  refine Finset.sum_congr rfl fun e _ => ?_
  have hk := ValueIdx.contrEquiv1_symm_val dot_S512x64_S2048x64_S512x2048_1_1_0_0_n_n 64 rfl rfl e
  have el : dot_S512x64_S2048x64_S512x2048_1_1_0_0_n_n.lhsIdx (ix2 r k) ((ValueIdx.contrEquiv1 dot_S512x64_S2048x64_S512x2048_1_1_0_0_n_n 64 rfl rfl).symm e) = ix2 r e := funext fun a => Fin.ext (by
    match a with
    | ⟨0, _⟩ => exact scores_lhs_0 _ _
    | ⟨1, _⟩ => exact (scores_lhs_1 _ _).trans hk)
  have er : dot_S512x64_S2048x64_S512x2048_1_1_0_0_n_n.rhsIdx (ix2 r k) ((ValueIdx.contrEquiv1 dot_S512x64_S2048x64_S512x2048_1_1_0_0_n_n 64 rfl rfl).symm e) = ix2 k e := funext fun a => Fin.ext (by
    match a with
    | ⟨0, _⟩ => exact scores_rhs_0 _ _
    | ⟨1, _⟩ => exact (scores_rhs_1 _ _).trans hk)
  rw [el, er]

theorem avg_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem avg_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem avg_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem avg_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The averaging product: a row of weights against a column of values, contracted over the 2048 key positions. -/
theorem avg_apply (p : FVec Ideal S512x2048 .bf16) (v64 : FVec Ideal S2048x64 .bf16) (r : Fin 512) (d : Fin 64) :
    matmul dot_S512x2048_S2048x64_S512x64_1_0_0_1_n_n none p v64 (constant (F := Ideal) S512x64 .f32 0x00000000#32) (ix2 r d)
      = ∑ k : Fin 2048, p (ix2 r k) * v64 (ix2 k d) := by
  refine (Ideal.matmul_constant_zero_apply dot_S512x2048_S2048x64_S512x64_1_0_0_1_n_n none p v64 (ix2 r d)).trans ?_
  rw [← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact avg_lhs_0 _ _
    | ⟨1, _⟩ => exact (avg_lhs_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (avg_rhs_0 _ _).trans hk
    | ⟨1, _⟩ => exact avg_rhs_1 _ _)
  rw [el, er]

/-! ## The row maximum and the row sum, in their keep-dims forms -/

/-- The row maximum, kept as a column and broadcast back along the row: at `(r, k)` it is the maximum of row `r`. -/
theorem rowmax_apply (s : FVec Ideal S512x2048 .f32) (h : S512x2048.Reduces [1] S512) (hφ : FKind.Formats .f32)
    (hacc : (0xFF800000#32 : BitVec 32) = FKind.maximumf.neutral .f32 hφ)
    (hc : S512.ShapeCasts S512x1) (hb : S512x1.Broadcasts S512x2048) (r : Fin 512) (k : Fin 2048) :
    broadcastTo S512x2048 (shapeCast S512x1 (multiReduction .maximumf [1] S512 s 0xFF800000#32 h hφ hacc) hc) hb (ix2 r k)
      = rowMax (fun k' : Fin 2048 => s (ix2 r k')) := by
  refine (broadcastTo_apply _ hb (ix2 r k) (ix2 r (0 : Fin 1)) ?_).trans ?_
  · intro a
    match a with
    | ⟨0, _⟩ => rfl
    | ⟨1, _⟩ => rfl
  refine (shapeCast_apply _ hc (ix2 r (0 : Fin 1)) (ix1 r) ?_).trans ?_
  · rw [Shape.rowMajor_val_one, Shape.rowMajor_val_two]
    show r.val = r.val * 1 + 0
    omega
  refine (Ideal.multiReduction_maximumf_single s _ h hφ hacc (ix1 r)).trans ?_
  unfold rowMax
  show (Finset.univ : Finset (Fin 2048)).fold max (Ideal.ofBits .f32 0xFF800000#32) (s ∘ h.lift (ix1 r)) = _
  rw [Consts.ofBits_neg_inf]
  have e : (s ∘ h.lift (ix1 r)) = fun k' : Fin 2048 => s (ix2 r k') :=
    funext fun k' => congrArg s (funext fun a => Fin.ext (by
      match a with
      | ⟨0, _⟩ => rfl
      | ⟨1, _⟩ => rfl))
  rw [e]
  rfl

/-- The reciprocal of the row sum, kept as a column and broadcast along the head's 64 columns. -/
theorem rowsum_recip_apply (p : FVec Ideal S512x2048 .f32) (h : S512x2048.Reduces [1] S512) (hφ : FKind.Formats .f32)
    (hacc : (0x00000000#32 : BitVec 32) = FKind.add.neutral .f32 hφ)
    (hc : S512.ShapeCasts S512x1) (hb : S512x1.Broadcasts S512x64) (r : Fin 512) (d : Fin 64) :
    broadcastTo S512x64 (divf (broadcast S512x1 (Scalar.ofBits (F := Ideal) .f32 0x3F800000#32))
        (shapeCast S512x1 (multiReduction .add [1] S512 p 0x00000000#32 h hφ hacc) hc)) hb (ix2 r d)
      = Ideal.div 1 (∑ k : Fin 2048, p (ix2 r k)) := by
  refine (broadcastTo_apply _ hb (ix2 r d) (ix2 r (0 : Fin 1)) ?_).trans ?_
  · intro a
    match a with
    | ⟨0, _⟩ => rfl
    | ⟨1, _⟩ => rfl
  show Ideal.div (Ideal.ofBits .f32 0x3F800000#32) (shapeCast S512x1 (multiReduction .add [1] S512 p 0x00000000#32 h hφ hacc) hc (ix2 r (0 : Fin 1))) = _
  rw [Consts.ofBits_one]
  refine congrArg (Ideal.div 1) ?_
  refine (shapeCast_apply _ hc (ix2 r (0 : Fin 1)) (ix1 r) ?_).trans ?_
  · rw [Shape.rowMajor_val_one, Shape.rowMajor_val_two]
    show r.val = r.val * 1 + 0
    omega
  refine (Ideal.multiReduction_add_single p _ h hφ hacc (ix1 r)).trans ?_
  show ∑ k : Fin 2048, p (h.lift (ix1 r) k) = _
  refine Finset.sum_congr rfl fun k _ => congrArg p (funext fun a => Fin.ext ?_)
  match a with
  | ⟨0, _⟩ => rfl
  | ⟨1, _⟩ => rfl

/-! ## The operands: a 64-column slice of a block with its unit axis dropped -/

/-- Column `e` of the 64-column slice at offset `o` of a query block is column `o + e` of the block. -/
theorem q_slice_apply (x : Vec Ideal S1x512x128 .bf16) (o : Nat) (hc : S1x512x128.ShapeCasts S512x128)
    (hs : S512x128.Slices ![0, o] S512x64) (r : Fin 512) (e : Fin 64) (c' : Fin 128) (hc' : c'.val = o + e.val) :
    extractStridedSlice S512x64 ![0, o] (shapeCast S512x128 x hc) hs (ix2 r e) = x (ix3 (0 : Fin 1) r c') := by
  refine (extractStridedSlice_apply ![0, o] _ hs (ix2 r e) (ix2 r c') ?_).trans ?_
  · intro a
    match a with
    | ⟨0, _⟩ => show r.val = 0 + r.val; omega
    | ⟨1, _⟩ => exact hc'
  refine shapeCast_apply x hc (ix2 r c') (ix3 (0 : Fin 1) r c') ?_
  rw [Shape.rowMajor_val_three, Shape.rowMajor_val_two]
  show (0 * 512 + r.val) * 128 + c'.val = r.val * 128 + c'.val
  omega

/-- The same for a key or value block of 2048 rows. -/
theorem kv_slice_apply (x : Vec Ideal S1x2048x128 .bf16) (o : Nat) (hc : S1x2048x128.ShapeCasts S2048x128)
    (hs : S2048x128.Slices ![0, o] S2048x64) (k : Fin 2048) (e : Fin 64) (c' : Fin 128) (hc' : c'.val = o + e.val) :
    extractStridedSlice S2048x64 ![0, o] (shapeCast S2048x128 x hc) hs (ix2 k e) = x (ix3 (0 : Fin 1) k c') := by
  refine (extractStridedSlice_apply ![0, o] _ hs (ix2 k e) (ix2 k c') ?_).trans ?_
  · intro a
    match a with
    | ⟨0, _⟩ => show k.val = 0 + k.val; omega
    | ⟨1, _⟩ => exact hc'
  refine shapeCast_apply x hc (ix2 k c') (ix3 (0 : Fin 1) k c') ?_
  rw [Shape.rowMajor_val_three, Shape.rowMajor_val_two]
  show (0 * 2048 + k.val) * 128 + c'.val = k.val * 128 + c'.val
  omega

/-! ## One head -/

/-- The scaled scores of one head: the score product times the scalar `0.125`. -/
abbrev scoresOf (q64 : FVec Ideal S512x64 .bf16) (k64 : FVec Ideal S2048x64 .bf16) : FVec Ideal S512x2048 .f32 :=
  mulf (matmul dot_S512x64_S2048x64_S512x2048_1_1_0_0_n_n none q64 k64 (constant (F := Ideal) S512x2048 .f32 0x00000000#32))
    (broadcast S512x2048 (Scalar.ofBits (F := Ideal) .f32 0x3E000000#32))

/-- Spec's row of scaled scores of query row `r`. -/
abbrev scoreRow (q64 : FVec Ideal S512x64 .bf16) (k64 : FVec Ideal S2048x64 .bf16) (r : Fin 512) : Row :=
  fun k : Fin 2048 => (∑ e : Fin 64, q64 (ix2 r e) * k64 (ix2 k e)) * ((1 / 8 : ℝ) : EReal)

theorem scoresOf_apply (q64 : FVec Ideal S512x64 .bf16) (k64 : FVec Ideal S2048x64 .bf16) (r : Fin 512) (k : Fin 2048) :
    scoresOf q64 k64 (ix2 r k) = scoreRow q64 k64 r k := by
  show matmul dot_S512x64_S2048x64_S512x2048_1_1_0_0_n_n none q64 k64 (constant (F := Ideal) S512x2048 .f32 0x00000000#32) (ix2 r k)
      * Ideal.ofBits .f32 0x3E000000#32 = _
  rw [scores_apply, Consts.ofBits_eighth]

/-- The weights of one head before normalisation: the exponential of the scaled scores less their row maximum. -/
theorem weights_apply (q64 : FVec Ideal S512x64 .bf16) (k64 : FVec Ideal S2048x64 .bf16)
    (h : S512x2048.Reduces [1] S512) (hφ : FKind.Formats .f32)
    (hacc : (0xFF800000#32 : BitVec 32) = FKind.maximumf.neutral .f32 hφ)
    (hc : S512.ShapeCasts S512x1) (hb : S512x1.Broadcasts S512x2048) (r : Fin 512) (k : Fin 2048) :
    exp (subf (scoresOf q64 k64)
        (broadcastTo S512x2048 (shapeCast S512x1 (multiReduction .maximumf [1] S512 (scoresOf q64 k64) 0xFF800000#32 h hφ hacc) hc) hb))
        (ix2 r k)
      = expShift (scoreRow q64 k64 r) k := by
  show Ideal.exp (scoresOf q64 k64 (ix2 r k)
      - broadcastTo S512x2048 (shapeCast S512x1 (multiReduction .maximumf [1] S512 (scoresOf q64 k64) 0xFF800000#32 h hφ hacc) hc) hb (ix2 r k)) = _
  rw [rowmax_apply (scoresOf q64 k64) h hφ hacc hc hb r k]
  have e : (fun k' : Fin 2048 => scoresOf q64 k64 (ix2 r k')) = scoreRow q64 k64 r := funext (scoresOf_apply q64 k64 r)
  rw [e, scoresOf_apply]
  rfl

/-- From the weights to the head's output: the averaging product times the broadcast reciprocal of the row sum. -/
theorem tail_apply (P : FVec Ideal S512x2048 .f32) (v64 : FVec Ideal S2048x64 .bf16)
    (hlt : FTy.bits .bf16 < FTy.bits .f32)
    (h : S512x2048.Reduces [1] S512) (hφ : FKind.Formats .f32)
    (hacc : (0x00000000#32 : BitVec 32) = FKind.add.neutral .f32 hφ)
    (hc : S512.ShapeCasts S512x1) (hb : S512x1.Broadcasts S512x64) (r : Fin 512) (d : Fin 64) :
    truncf .bf16 (mulf
        (matmul dot_S512x2048_S2048x64_S512x64_1_0_0_1_n_n none (truncf .bf16 P hlt) v64 (constant (F := Ideal) S512x64 .f32 0x00000000#32))
        (broadcastTo S512x64 (divf (broadcast S512x1 (Scalar.ofBits (F := Ideal) .f32 0x3F800000#32))
          (shapeCast S512x1 (multiReduction .add [1] S512 P 0x00000000#32 h hφ hacc) hc)) hb)) hlt (ix2 r d)
      = (∑ k : Fin 2048, P (ix2 r k) * v64 (ix2 k d)) * Ideal.div 1 (∑ k : Fin 2048, P (ix2 r k)) := by
  show matmul dot_S512x2048_S2048x64_S512x64_1_0_0_1_n_n none (truncf .bf16 P hlt) v64 (constant (F := Ideal) S512x64 .f32 0x00000000#32) (ix2 r d)
      * broadcastTo S512x64 (divf (broadcast S512x1 (Scalar.ofBits (F := Ideal) .f32 0x3F800000#32))
          (shapeCast S512x1 (multiReduction .add [1] S512 P 0x00000000#32 h hφ hacc) hc)) hb (ix2 r d) = _
  rw [avg_apply, rowsum_recip_apply]
  rfl

/-- One head of the body, from its three 64-column operands: Spec's average-then-scale attention of the head's
    row of scaled scores and its column of values. -/
theorem head_apply (q64 : FVec Ideal S512x64 .bf16) (k64 v64 : FVec Ideal S2048x64 .bf16)
    (hlt : FTy.bits .bf16 < FTy.bits .f32)
    (h : S512x2048.Reduces [1] S512) (hφ : FKind.Formats .f32)
    (hmax : (0xFF800000#32 : BitVec 32) = FKind.maximumf.neutral .f32 hφ)
    (hadd : (0x00000000#32 : BitVec 32) = FKind.add.neutral .f32 hφ)
    (hc : S512.ShapeCasts S512x1) (hb : S512x1.Broadcasts S512x2048) (hb' : S512x1.Broadcasts S512x64)
    (P : FVec Ideal S512x2048 .f32)
    (hP : P = exp (subf (scoresOf q64 k64)
        (broadcastTo S512x2048 (shapeCast S512x1 (multiReduction .maximumf [1] S512 (scoresOf q64 k64) 0xFF800000#32 h hφ hmax) hc) hb)))
    (r : Fin 512) (d : Fin 64) :
    truncf .bf16 (mulf
        (matmul dot_S512x2048_S2048x64_S512x64_1_0_0_1_n_n none (truncf .bf16 P hlt) v64 (constant (F := Ideal) S512x64 .f32 0x00000000#32))
        (broadcastTo S512x64 (divf (broadcast S512x1 (Scalar.ofBits (F := Ideal) .f32 0x3F800000#32))
          (shapeCast S512x1 (multiReduction .add [1] S512 P 0x00000000#32 h hφ hadd) hc)) hb')) hlt (ix2 r d)
      = attnK (scoreRow q64 k64 r) (fun k : Fin 2048 => v64 (ix2 k d)) := by
  refine (tail_apply P v64 hlt h hφ hadd hc hb' r d).trans ?_
  have e : ∀ k : Fin 2048, P (ix2 r k) = expShift (scoreRow q64 k64 r) k := fun k => by
    rw [hP]; exact weights_apply q64 k64 h hφ hmax hc hb r k
  unfold attnK denom
  simp only [e]

/-! ## The two halves of the block and the stored term -/

/-- The first head: columns 0 … 63 of the stored block. -/
theorem first_half (x0 : Vec Ideal S1x512x128 .bf16) (x1 x2 : Vec Ideal S1x2048x128 .bf16) (r : Fin 512) (d : Fin 64)
    (c : Fin 128) (hcd : c.val = d.val) :
    k3_pay5 (F := Ideal) x0 x1 x2 (ix2 r d)
      = attnK (fun k : Fin 2048 => (∑ e : Fin 64, x0 (ix3 (0 : Fin 1) r (pairCol c e)) * x1 (ix3 (0 : Fin 1) k (pairCol c e))) * ((1 / 8 : ℝ) : EReal))
              (fun k : Fin 2048 => x2 (ix3 (0 : Fin 1) k c)) := by
  unfold k3_pay5 k3_pay2 k3_pay3 k3_pay4
  refine (head_apply _ _ _ _ _ _ _ _ _ _ _ _ rfl r d).trans ?_
  have hp : ∀ e : Fin 64, (pairCol c e).val = 0 + e.val := fun e => by
    show c.val / 64 * 64 + e.val = 0 + e.val
    have := d.isLt; omega
  refine congrArg₂ attnK (funext fun k => ?_) (funext fun k => ?_)
  · refine congrArg (· * ((1 / 8 : ℝ) : EReal)) (Finset.sum_congr rfl fun e _ => ?_)
    rw [q_slice_apply x0 0 _ _ r e (pairCol c e) (hp e), kv_slice_apply x1 0 _ _ k e (pairCol c e) (hp e)]
  · exact kv_slice_apply x2 0 _ _ k d c (by omega)

/-- The second head: columns 64 … 127 of the stored block, from the weights, their row sum and the value slice. -/
theorem second_half (x0 : Vec Ideal S1x512x128 .bf16) (x1 x2 : Vec Ideal S1x2048x128 .bf16)
    (hlt : FTy.bits .bf16 < FTy.bits .f32) (hc : S512.ShapeCasts S512x1) (hb' : S512x1.Broadcasts S512x64)
    (r : Fin 512) (d : Fin 64) (c : Fin 128) (hcd : c.val = 64 + d.val) :
    truncf .bf16 (mulf
        (matmul dot_S512x2048_S2048x64_S512x64_1_0_0_1_n_n none (truncf .bf16 (k3_pay7 (F := Ideal) x0 x1) hlt) (k3_pay6 (F := Ideal) x2) (constant (F := Ideal) S512x64 .f32 0x00000000#32))
        (broadcastTo S512x64 (divf (broadcast S512x1 (Scalar.ofBits (F := Ideal) .f32 0x3F800000#32))
          (shapeCast S512x1 (k3_pay8 (F := Ideal) x0 x1) hc)) hb')) hlt (ix2 r d)
      = attnK (fun k : Fin 2048 => (∑ e : Fin 64, x0 (ix3 (0 : Fin 1) r (pairCol c e)) * x1 (ix3 (0 : Fin 1) k (pairCol c e))) * ((1 / 8 : ℝ) : EReal))
              (fun k : Fin 2048 => x2 (ix3 (0 : Fin 1) k c)) := by
  unfold k3_pay8
  refine (head_apply _ _ (k3_pay6 (F := Ideal) x2) hlt _ _ _ _ hc _ hb' (k3_pay7 (F := Ideal) x0 x1) rfl r d).trans ?_
  have hp : ∀ e : Fin 64, (pairCol c e).val = 64 + e.val := fun e => by
    show c.val / 64 * 64 + e.val = 64 + e.val
    have := d.isLt; omega
  refine congrArg₂ attnK (funext fun k => ?_) (funext fun k => ?_)
  · refine congrArg (· * ((1 / 8 : ℝ) : EReal)) (Finset.sum_congr rfl fun e _ => ?_)
    unfold k3_pay2 k3_pay3
    rw [q_slice_apply x0 64 _ _ r e (pairCol c e) (hp e), kv_slice_apply x1 64 _ _ k e (pairCol c e) (hp e)]
  · unfold k3_pay6 k3_pay4
    exact kv_slice_apply x2 64 _ _ k d c hcd

/-- The attention body at an index: the term the body stores, read at row `r` and column `c` of its block, is the
    average-then-scale attention of the scaled scores of row `r` within the head that owns column `c` and of
    column `c` of the values. -/
theorem out_apply (x0 : Vec Ideal S1x512x128 .bf16) (x1 x2 : Vec Ideal S1x2048x128 .bf16) (r : Fin 512) (c : Fin 128) :
    k3_pay1 (F := Ideal) (k3_pay5 x0 x1 x2) (k3_pay6 x2) (k3_pay7 x0 x1) (k3_pay8 x0 x1) (ix3 (0 : Fin 1) r c)
      = attnK (fun k : Fin 2048 => (∑ d : Fin 64, x0 (ix3 (0 : Fin 1) r (pairCol c d)) * x1 (ix3 (0 : Fin 1) k (pairCol c d))) * ((1 / 8 : ℝ) : EReal))
              (fun k : Fin 2048 => x2 (ix3 (0 : Fin 1) k c)) := by
  unfold k3_pay1
  refine (shapeCast_apply _ _ (ix3 (0 : Fin 1) r c) (ix2 r c) ?_).trans ?_
  · rw [Shape.rowMajor_val_three, Shape.rowMajor_val_two]
    show r.val * 128 + c.val = (0 * 512 + r.val) * 128 + c.val
    omega
  by_cases hc : c.val < 64
  · refine (concatenate_pair_apply_left (s₁ := S512x64) (s₂ := S512x64) (1 : Fin 2) _ _ _ (ix2 r c) rfl (ix2 r (⟨c.val, hc⟩ : Fin 64)) ?_).trans ?_
    · intro b
      match b with
      | ⟨0, _⟩ => rfl
      | ⟨1, _⟩ => rfl
    exact first_half x0 x1 x2 r ⟨c.val, hc⟩ c rfl
  · have hc' : c.val - 64 < 64 := by have := c.isLt; omega
    refine (concatenate_pair_apply_right (s₁ := S512x64) (s₂ := S512x64) (1 : Fin 2) _ _ _ (ix2 r c) rfl rfl (ix2 r (⟨c.val - 64, hc'⟩ : Fin 64)) ?_ ?_).trans ?_
    · intro b hb
      match b with
      | ⟨0, _⟩ => rfl
      | ⟨1, _⟩ => exact absurd rfl hb
    · show c.val - 64 + 64 = c.val
      omega
    exact second_half x0 x1 x2 _ _ _ r ⟨c.val - 64, hc'⟩ c (by show c.val = 64 + (c.val - 64); omega)

end Cert.KernelIdeal.AttnBody

end
-- ==== Proof.RefValue.lean ====
/-
  The reference computes the specification.

  The reference program is read one stage at a time at explicit coordinates: each linear layer is the
  specification's `proj`; splitting the 1024 model columns into 16 heads of 64 and moving the head axis
  outward reads column `64 h + d`; the scaled scores are the specification's `score` (division by the real 8 is
  multiplication by 1/8 at every extended real); the spelled-out softmax is the shifted exponential over the
  row maximum (a fold of `max` from −∞) divided by the row sum; the weighted sum with the values, moved back to
  model columns, is `heads attnR`; and the last linear layer gives `mha attnR`, that is `G attnR`.
  No finiteness of any value is used.
-/
import proofs.«143443_j37838661877847_2_alg».proof.Proof.Gen.ReferenceIdeal.Read
import proofs.«143443_j37838661877847_2_alg».proof.Proof.Spec
import proofs.«143443_j37838661877847_2_alg».proof.Proof.Consts
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Mha

/-- Activations, weights and biases as arrays of extended reals. -/
abbrev AAct := (⟨S4x2048x1024, .f32⟩ : BufTy).Contents (Elt Ideal)
abbrev AWgt := (⟨S1024x1024, .f32⟩ : BufTy).Contents (Elt Ideal)
abbrev ABias := (⟨S1024, .f32⟩ : BufTy).Contents (Elt Ideal)

/-! ## The linear layer -/

/-- The left operand of a linear layer's contraction at `(n, s, e)`, term `k`: row `(n, s)`, column `k`. -/
theorem lidx_lin (n : Fin 4) (s : Fin 2048) (e k : Fin 1024) : lidx_main_v0 (ix3 n s e) k = ix3 n s k :=
  funext fun a => Fin.ext (by match a with | ⟨0, _⟩ => rfl | ⟨1, _⟩ => rfl | ⟨2, _⟩ => rfl)

/-- The right operand of a linear layer's contraction at `(n, s, e)`, term `k`: weight row `e`, column `k`. -/
theorem ridx_lin (n : Fin 4) (s : Fin 2048) (e k : Fin 1024) : ridx_main_v0 (ix3 n s e) k = ix2 e k :=
  funext fun a => Fin.ext (by match a with | ⟨0, _⟩ => rfl | ⟨1, _⟩ => rfl)

/-- The bias, broadcast twice, read at `(n, s, e)` is its entry `e`. -/
theorem bias_lin (n : Fin 4) (s : Fin 2048) (e : Fin 1024) : idx_main_v1 (idx_main_v2 (ix3 n s e)) = ix1 e :=
  funext fun a => Fin.ext (by match a with | ⟨0, _⟩ => rfl)

/-- A linear layer of the reference is the specification's `proj`. -/
theorem lin_eq (y : AAct) (W : AWgt) (b : ABias) (n : Fin 4) (s : Fin 2048) (e : Fin 1024) :
    val_main_v3 (F := Ideal) y W b (ix3 n s e) = proj (act y) (wgt W) (bias b) n s e := by
  rw [val_main_v3_apply, val_main_v0_apply, val_main_v2_apply, val_main_v1_apply, bias_lin]
  simp only [Ideal.addf_def, lidx_lin, ridx_lin]
  rfl

/-! ## Splitting the model columns into heads -/

/-- Moving the head axis outward: `(n, h, s, d)` of the transposed array is `(n, s, h, d)` of the split one. -/
theorem idx_swap (n : Fin 4) (h : Fin 16) (s : Fin 2048) (d : Fin 64) : idx_main_v5 (ix4 n h s d) = ix4 n s h d :=
  funext fun a => Fin.ext (by match a with | ⟨0, _⟩ => rfl | ⟨1, _⟩ => rfl | ⟨2, _⟩ => rfl | ⟨3, _⟩ => rfl)

/-- Splitting the 1024 columns into 16 × 64: `(n, s, h, d)` of the split array is column `64 h + d` of row `(n, s)`. -/
theorem idx_split (n : Fin 4) (s : Fin 2048) (h : Fin 16) (d : Fin 64) : idx_main_v4 (ix4 n s h d) = ix3 n s (col h d) :=
  funext fun a => Fin.ext (by
    have hn := n.isLt; have hs := s.isLt; have hh := h.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)

/-- A projected array, split into heads: entry `(n, h, s, d)` is column `64 h + d` of the linear layer's row `(n, s)`. -/
theorem head_eq (y : AAct) (W : AWgt) (b : ABias) (n : Fin 4) (h : Fin 16) (s : Fin 2048) (d : Fin 64) :
    val_main_v5 (F := Ideal) y W b (ix4 n h s d) = proj (act y) (wgt W) (bias b) n s (col h d) := by
  rw [val_main_v5_apply, val_main_v4_apply, idx_swap, idx_split, lin_eq]

/-- The key and value projections are the same program text as the query projection, on their own arguments. -/
theorem v11_eq (y : AAct) (W : AWgt) (b : ABias) : val_main_v11 (F := Ideal) y W b = val_main_v5 (F := Ideal) y W b := rfl
theorem v17_eq (y : AAct) (W : AWgt) (b : ABias) : val_main_v17 (F := Ideal) y W b = val_main_v5 (F := Ideal) y W b := rfl

/-! ## The scaled scores -/

theorem lidx_score (n : Fin 4) (h : Fin 16) (q k : Fin 2048) (c : Fin 64) : lidx_main_v18 (ix4 n h q k) c = ix4 n h q c :=
  funext fun a => Fin.ext (by match a with | ⟨0, _⟩ => rfl | ⟨1, _⟩ => rfl | ⟨2, _⟩ => rfl | ⟨3, _⟩ => rfl)

theorem ridx_score (n : Fin 4) (h : Fin 16) (q k : Fin 2048) (c : Fin 64) : ridx_main_v18 (ix4 n h q k) c = ix4 n h k c :=
  funext fun a => Fin.ext (by match a with | ⟨0, _⟩ => rfl | ⟨1, _⟩ => rfl | ⟨2, _⟩ => rfl | ⟨3, _⟩ => rfl)

/-- The scores: the heads' dot product divided by the real 8, which at every extended real is the product with 1/8. -/
theorem score_eq (x0 x1 : AAct) (x3 : AWgt) (x4 : ABias) (x5 : AWgt) (x6 : ABias) (n : Fin 4) (h : Fin 16) (q k : Fin 2048) :
    val_main_v20 (F := Ideal) x0 x1 x3 x4 x5 x6 (ix4 n h q k)
      = score (proj (act x0) (wgt x3) (bias x4)) (proj (act x1) (wgt x5) (bias x6)) n h q k := by
  rw [val_main_v20_apply, val_main_v18_apply, val_main_v19_apply, val_main_cst_apply]
  simp only [Ideal.hostDivf_def, Ideal.ofBits_def, Cert.Mha.Consts.ofBits_eight, lidx_score, ridx_score, v11_eq, head_eq]
  rw [Ideal.div_coe (by norm_num : (8 : ℝ) ≠ 0)]
  rfl

/-! ## The softmax row -/

/-- Key position `k` put back on the reduced axis of `(n, h, q)` is `(n, h, q, k)`. -/
theorem lift_row (hr : S4x16x2048x2048.Reduces [3] S4x16x2048) (n : Fin 4) (h : Fin 16) (q : Fin 2048) (k : Fin 2048) :
    hr.lift (ix3 n h q) k = ix4 n h q k :=
  funext fun c => Fin.ext (by match c with | ⟨0, _⟩ => rfl | ⟨1, _⟩ => rfl | ⟨2, _⟩ => rfl | ⟨3, _⟩ => rfl)

/-- The max-reduce over the key positions, from −∞, is the fold of `max` from `⊥` over the row. -/
theorem reduceMax_eq (y : S4x16x2048x2048.Idx → EReal) (n : Fin 4) (h : Fin 16) (q : Fin 2048) :
    Host.reduce (FloatOps.maximumf (F := Ideal) (φ := .f32)) y (val_main_cst_0 (F := Ideal))
        reducesTo_S4x16x2048x2048_S4x16x2048_d3 h_S_ (ix3 n h q)
      = rowMax (fun k => y (ix4 n h q k)) := by
  have hr : S4x16x2048x2048.Reduces [3] S4x16x2048 := by decide
  rw [Host.reduce_eq_fold_single (FloatOps.maximumf (F := Ideal) (φ := .f32)) y _ reducesTo_S4x16x2048x2048_S4x16x2048_d3 hr h_S_]
  have hf : (y ∘ hr.lift (ix3 n h q)) = fun k : Fin 2048 => y (ix4 n h q k) :=
    funext fun k => congrArg y (lift_row hr n h q k)
  rw [hf, val_main_cst_0_apply, Ideal.ofBits_def, Cert.Mha.Consts.ofBits_neg_inf]
  rfl

/-- The row maximum of the reference, at `(n, h, q)`: the specification's `rowMax` of the score row. -/
theorem max_eq (x0 x1 : AAct) (x3 : AWgt) (x4 : ABias) (x5 : AWgt) (x6 : ABias) (n : Fin 4) (h : Fin 16) (q : Fin 2048) :
    val_main_v23 (F := Ideal) x0 x1 x3 x4 x5 x6 (ix3 n h q)
      = rowMax (fun k => score (proj (act x0) (wgt x3) (bias x4)) (proj (act x1) (wgt x5) (bias x6)) n h q k) := by
  rw [val_main_v23_apply, val_main_v22_apply, val_main_cst_1_apply]
  unfold val_main_v21
  rw [reduceMax_eq]
  simp only [Ideal.maximumf_def, Ideal.ofBits_def, Cert.Mha.Consts.ofBits_neg_inf, max_bot_left, score_eq]

/-- A per-row value broadcast along the key axis, read at `(n, h, q, k)`, is the value of row `(n, h, q)`. -/
theorem idx_keep_max (n : Fin 4) (h : Fin 16) (q k : Fin 2048) : idx_main_v24 (idx_main_v25 (ix4 n h q k)) = ix3 n h q :=
  funext fun a => Fin.ext (by match a with | ⟨0, _⟩ => rfl | ⟨1, _⟩ => rfl | ⟨2, _⟩ => rfl)

theorem idx_keep_sum (n : Fin 4) (h : Fin 16) (q k : Fin 2048) : idx_main_v29 (idx_main_v30 (ix4 n h q k)) = ix3 n h q :=
  funext fun a => Fin.ext (by match a with | ⟨0, _⟩ => rfl | ⟨1, _⟩ => rfl | ⟨2, _⟩ => rfl)

/-- Term `k` of the row sum at `(n, h, q)` is entry `(n, h, q, k)`. -/
theorem idx_sum (n : Fin 4) (h : Fin 16) (q k : Fin 2048) : idx_main_v28 (ix3 n h q) k = ix4 n h q k :=
  funext fun a => Fin.ext (by match a with | ⟨0, _⟩ => rfl | ⟨1, _⟩ => rfl | ⟨2, _⟩ => rfl | ⟨3, _⟩ => rfl)

/-- The shifted exponentials of the reference are the specification's. -/
theorem exp_eq (x0 x1 : AAct) (x3 : AWgt) (x4 : ABias) (x5 : AWgt) (x6 : ABias) (n : Fin 4) (h : Fin 16) (q k : Fin 2048) :
    val_main_v27 (F := Ideal) x0 x1 x3 x4 x5 x6 (ix4 n h q k)
      = expShift (fun k => score (proj (act x0) (wgt x3) (bias x4)) (proj (act x1) (wgt x5) (bias x6)) n h q k) k := by
  rw [val_main_v27_apply, val_main_v26_apply, val_main_v25_apply, val_main_v24_apply, idx_keep_max, max_eq, score_eq]
  simp only [Ideal.hostUnary_exp_def, Ideal.subf_def]
  rfl

/-- The row sum of the reference, from the initial value 0, is the specification's `denom`. -/
theorem denom_eq (x0 x1 : AAct) (x3 : AWgt) (x4 : ABias) (x5 : AWgt) (x6 : ABias) (n : Fin 4) (h : Fin 16) (q : Fin 2048) :
    val_main_v28 (F := Ideal) x0 x1 x3 x4 x5 x6 (ix3 n h q)
      = denom (fun k => score (proj (act x0) (wgt x3) (bias x4)) (proj (act x1) (wgt x5) (bias x6)) n h q k) := by
  rw [val_main_v28_apply, val_main_cst_2_apply]
  simp only [Ideal.ofBits_def, Ideal.ofBits_zero_f32, zero_add, idx_sum, exp_eq]
  rfl

/-- The normalised weights: each shifted exponential divided by the row sum. -/
theorem weight_eq (x0 x1 : AAct) (x3 : AWgt) (x4 : ABias) (x5 : AWgt) (x6 : ABias) (n : Fin 4) (h : Fin 16) (q k : Fin 2048) :
    val_main_v31 (F := Ideal) x0 x1 x3 x4 x5 x6 (ix4 n h q k)
      = Ideal.div (expShift (fun k => score (proj (act x0) (wgt x3) (bias x4)) (proj (act x1) (wgt x5) (bias x6)) n h q k) k)
          (denom (fun k => score (proj (act x0) (wgt x3) (bias x4)) (proj (act x1) (wgt x5) (bias x6)) n h q k)) := by
  rw [val_main_v31_apply, val_main_v30_apply, val_main_v29_apply, idx_keep_sum, denom_eq, exp_eq]
  rfl

/-! ## The weighted average of the values, and back to model columns -/

theorem lidx_avg (n : Fin 4) (h : Fin 16) (q : Fin 2048) (d : Fin 64) (k : Fin 2048) : lidx_main_v32 (ix4 n h q d) k = ix4 n h q k :=
  funext fun a => Fin.ext (by match a with | ⟨0, _⟩ => rfl | ⟨1, _⟩ => rfl | ⟨2, _⟩ => rfl | ⟨3, _⟩ => rfl)

theorem ridx_avg (n : Fin 4) (h : Fin 16) (q : Fin 2048) (d : Fin 64) (k : Fin 2048) : ridx_main_v32 (ix4 n h q d) k = ix4 n h k d :=
  funext fun a => Fin.ext (by match a with | ⟨0, _⟩ => rfl | ⟨1, _⟩ => rfl | ⟨2, _⟩ => rfl | ⟨3, _⟩ => rfl)

/-- One head's output at `(n, h, q, d)`: normalise-then-average of the score row against column `64 h + d` of the values. -/
theorem avg_eq (x0 x1 x2 : AAct) (x3 : AWgt) (x4 : ABias) (x5 : AWgt) (x6 : ABias) (x7 : AWgt) (x8 : ABias)
    (n : Fin 4) (h : Fin 16) (q : Fin 2048) (d : Fin 64) :
    val_main_v32 (F := Ideal) x0 x1 x2 x3 x4 x5 x6 x7 x8 (ix4 n h q d)
      = attnR (fun k => score (proj (act x0) (wgt x3) (bias x4)) (proj (act x1) (wgt x5) (bias x6)) n h q k)
          (fun k => proj (act x2) (wgt x7) (bias x8) n k (col h d)) := by
  rw [val_main_v32_apply]
  simp only [lidx_avg, ridx_avg, weight_eq, v17_eq, head_eq]
  rfl

/-- Moving the head axis back inward. -/
theorem idx_unswap (n : Fin 4) (q : Fin 2048) (h : Fin 16) (d : Fin 64) : idx_main_v33 (ix4 n q h d) = ix4 n h q d :=
  funext fun a => Fin.ext (by match a with | ⟨0, _⟩ => rfl | ⟨1, _⟩ => rfl | ⟨2, _⟩ => rfl | ⟨3, _⟩ => rfl)

/-- Column `e` within its head. -/
def within (e : Fin 1024) : Fin 64 := ⟨e.val % 64, Nat.mod_lt _ (by decide)⟩

/-- Merging 16 × 64 back into 1024 columns: column `e` of row `(n, q)` is `(n, q, e / 64, e % 64)` of the split array. -/
theorem idx_merge (n : Fin 4) (q : Fin 2048) (e : Fin 1024) : idx_main_v34 (ix3 n q e) = ix4 n q (headOf e) (within e) :=
  funext fun a => Fin.ext (by
    have hn := n.isLt; have hq := q.isLt; have he := e.isLt
    match a with
    | ⟨0, _⟩ => show ((n.val * 2048 + q.val) * 1024 + e.val) / 2097152 = n.val; omega
    | ⟨1, _⟩ => show ((n.val * 2048 + q.val) * 1024 + e.val) / 1024 % 2048 = q.val; omega
    | ⟨2, _⟩ => show ((n.val * 2048 + q.val) * 1024 + e.val) / 64 % 16 = e.val / 64; omega
    | ⟨3, _⟩ => show ((n.val * 2048 + q.val) * 1024 + e.val) % 64 = e.val % 64; omega)

/-- A column is column `e % 64` of head `e / 64`. -/
theorem col_headOf_within (e : Fin 1024) : col (headOf e) (within e) = e :=
  Fin.ext (by show e.val / 64 * 64 + e.val % 64 = e.val; omega)

/-- All heads, back in model columns: the specification's `heads attnR` of the three projections. -/
theorem heads_eq (x0 x1 x2 : AAct) (x3 : AWgt) (x4 : ABias) (x5 : AWgt) (x6 : ABias) (x7 : AWgt) (x8 : ABias)
    (n : Fin 4) (q : Fin 2048) (e : Fin 1024) :
    val_main_v34 (F := Ideal) x0 x1 x2 x3 x4 x5 x6 x7 x8 (ix3 n q e)
      = heads attnR (proj (act x0) (wgt x3) (bias x4)) (proj (act x1) (wgt x5) (bias x6)) (proj (act x2) (wgt x7) (bias x8)) n q e := by
  rw [val_main_v34_apply, val_main_v33_apply, idx_merge, idx_unswap, avg_eq, col_headOf_within]
  rfl

/-! ## The output layer -/

/-- The output layer is the same program text as an input layer, applied to the heads' output. -/
theorem v38_eq (x0 x1 x2 : AAct) (x3 : AWgt) (x4 : ABias) (x5 : AWgt) (x6 : ABias) (x7 : AWgt) (x8 : ABias) (x9 : AWgt) (x10 : ABias) :
    val_main_v38 (F := Ideal) x0 x1 x2 x3 x4 x5 x6 x7 x8 x9 x10
      = val_main_v3 (F := Ideal) (val_main_v34 (F := Ideal) x0 x1 x2 x3 x4 x5 x6 x7 x8) x9 x10 := rfl

/-- The heads' output array, read by coordinates. -/
theorem act_heads (x0 x1 x2 : AAct) (x3 : AWgt) (x4 : ABias) (x5 : AWgt) (x6 : ABias) (x7 : AWgt) (x8 : ABias) :
    act (val_main_v34 (F := Ideal) x0 x1 x2 x3 x4 x5 x6 x7 x8)
      = heads attnR (proj (act x0) (wgt x3) (bias x4)) (proj (act x1) (wgt x5) (bias x6)) (proj (act x2) (wgt x7) (bias x8)) :=
  funext fun n => funext fun q => funext fun e => heads_eq x0 x1 x2 x3 x4 x5 x6 x7 x8 n q e

/-- The reference's result is the specification `G` with the normalise-then-average attention. -/
theorem ref_eq (x0 x1 x2 : (⟨Cert.ReferenceIdeal.S4x2048x1024, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal))
    (x5 : (⟨Cert.ReferenceIdeal.S1024x1024, .f32⟩ : BufTy).Contents (Elt Ideal))
    (x6 : (⟨Cert.ReferenceIdeal.S1024, .f32⟩ : BufTy).Contents (Elt Ideal))
    (x7 : (⟨Cert.ReferenceIdeal.S1024x1024, .f32⟩ : BufTy).Contents (Elt Ideal))
    (x8 : (⟨Cert.ReferenceIdeal.S1024, .f32⟩ : BufTy).Contents (Elt Ideal))
    (x9 : (⟨Cert.ReferenceIdeal.S1024x1024, .f32⟩ : BufTy).Contents (Elt Ideal))
    (x10 : (⟨Cert.ReferenceIdeal.S1024, .f32⟩ : BufTy).Contents (Elt Ideal)) :
    Cert.ReferenceIdeal.Read.val_main_v38 (F := Ideal) x0 x1 x2 x3 x4 x5 x6 x7 x8 x9 x10
      = Cert.Mha.G Cert.Mha.attnR x0 x1 x2 x3 x4 x5 x6 x7 x8 x9 x10 := by
  funext i
  obtain ⟨n, s, e, rfl⟩ : ∃ (n : Fin 4) (s : Fin 2048) (e : Fin 1024), i = ix3 n s e :=
    ⟨i 0, i 1, i 2, eq_ix3 (n0 := 4) (n1 := 2048) (n2 := 1024) i⟩
  rw [v38_eq, lin_eq, act_heads]
  rfl

end Cert.ReferenceIdeal.RefValue

end
-- ==== Proof.Softmax.lean ====
/-
  The softmax law on the extended reals.

  A row of scores that are all real numbers has a real maximum, so every shifted exponential
  `exp (s k − max s)` is a positive real number and so is their sum `L`. Division by a nonzero real is
  multiplication by its reciprocal for EVERY extended real numerator, and a nonnegative real factor distributes
  over a finite sum of arbitrary extended reals. Hence normalising each weight and then averaging equals averaging
  and then scaling by `1 / L`, whatever the values being averaged are (they may be infinite).

  The scores of attention are real numbers as soon as the query and key inputs and their layers are: sums and
  products of real numbers are real numbers. Only the two layers that feed the scores matter.
-/
import proofs.«143443_j37838661877847_2_alg».proof.Proof.Spec

noncomputable section

namespace Cert.Mha

open Idealize.ShloMosaic Idealize.ShloMosaic.ValueIdx

/-! ## Real numbers inside the extended reals -/

/-- The coercion of a finite sum of real numbers is the sum of the coercions. -/
theorem coe_finset_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A product of two real numbers is a real number. -/
theorem mul_real {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A sum of two real numbers is a real number. -/
theorem add_real {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- A finite sum of real numbers is a real number. -/
theorem sum_real {ι : Type} (t : Finset ι) (f : ι → EReal) (hf : ∀ i ∈ t, ∃ r : ℝ, f i = (r : EReal)) :
    ∃ r : ℝ, ∑ i ∈ t, f i = (r : EReal) := by
  refine Finset.sum_induction f (fun x => ∃ r : ℝ, x = (r : EReal)) ?_ ?_ hf
  · intro a b ha hb
    exact add_real ha hb
  · exact ⟨0, EReal.coe_zero.symm⟩

/-- A nonnegative real factor distributes over a finite sum of arbitrary extended reals. -/
theorem sum_mul_coe {ι : Type} (t : Finset ι) (f : ι → EReal) {c : ℝ} (hc : 0 ≤ c) :
    ∑ i ∈ t, f i * (c : EReal) = (∑ i ∈ t, f i) * (c : EReal) := by
  classical
  induction t using Finset.induction_on with
  | empty => simp
  | insert a t ha ih =>
    rw [Finset.sum_insert ha, Finset.sum_insert ha, ih,
      EReal.right_distrib_of_nonneg_of_ne_top (EReal.coe_nonneg.mpr hc) (EReal.coe_ne_top c)]

/-! ## A row of real scores -/

/-- The maximum of a row of real numbers is a real number: it is at least the first entry, so not `⊥`, and it is
    below `⊤` because every entry is. -/
theorem rowMax_real (s : Row) (hs : ∀ k, ∃ r : ℝ, s k = (r : EReal)) : ∃ m : ℝ, rowMax s = (m : EReal) := by
  have hbot : rowMax s ≠ ⊥ := by
    have h0 : s 0 ≤ rowMax s := (Finset.le_fold_max _).mpr (Or.inr ⟨0, Finset.mem_univ _, le_rfl⟩)
    obtain ⟨r, hr⟩ := hs 0
    intro h
    rw [h, hr] at h0
    exact EReal.coe_ne_bot r (le_bot_iff.mp h0)
  have htop : rowMax s ≠ ⊤ := by
    have hlt : rowMax s < ⊤ := by
      refine (Finset.fold_max_lt _).mpr ⟨bot_lt_top, fun k _ => ?_⟩
      obtain ⟨r, hr⟩ := hs k
      rw [hr]
      exact EReal.coe_lt_top r
    exact hlt.ne
  exact ⟨(rowMax s).toReal, (EReal.coe_toReal htop hbot).symm⟩

/-- Every shifted exponential of a row of real numbers is a positive real number. -/
theorem expShift_pos_real (s : Row) (hs : ∀ k, ∃ r : ℝ, s k = (r : EReal)) :
    ∀ k, ∃ p : ℝ, 0 < p ∧ expShift s k = (p : EReal) := by
  obtain ⟨m, hm⟩ := rowMax_real s hs
  intro k
  obtain ⟨r, hr⟩ := hs k
  refine ⟨Real.exp (r - m), Real.exp_pos _, ?_⟩
  rw [expShift, hr, hm, ← EReal.coe_sub, Ideal.exp_coe]

/-- The row sum of the shifted exponentials of a row of real numbers is a positive real number. -/
theorem denom_pos_real (s : Row) (hs : ∀ k, ∃ r : ℝ, s k = (r : EReal)) :
    ∃ L : ℝ, 0 < L ∧ denom s = (L : EReal) := by
  choose p hp0 hp using expShift_pos_real s hs
  refine ⟨∑ k, p k, Finset.sum_pos (fun k _ => hp0 k) Finset.univ_nonempty, ?_⟩
  rw [denom, coe_finset_sum]
  exact Finset.sum_congr rfl (fun k _ => hp k)

/-- The softmax law: with real scores, normalising and then averaging is averaging and then scaling by the
    reciprocal of the row sum. The averaged values are arbitrary extended reals. -/
theorem attn_eq (s v : Row) (hs : ∀ k, ∃ r : ℝ, s k = (r : EReal)) : attnR s v = attnK s v := by
  obtain ⟨L, hL0, hL⟩ := denom_pos_real s hs
  have hc : (0 : ℝ) ≤ 1 / L := by positivity
  rw [attnR, attnK, hL, Ideal.div_coe hL0.ne' 1, one_mul, ← sum_mul_coe _ _ hc]
  refine Finset.sum_congr rfl (fun k _ => ?_)
  rw [Ideal.div_coe hL0.ne', mul_right_comm]

/-! ## The scores of attention are real numbers -/

/-- A linear layer of real numbers yields real numbers. -/
theorem proj_real (x : Act) (W : Wgt) (b : Bias) (hx : ∀ n s d, ∃ r : ℝ, x n s d = (r : EReal))
    (hW : ∀ e d, ∃ r : ℝ, W e d = (r : EReal)) (hb : ∀ e, ∃ r : ℝ, b e = (r : EReal)) :
    ∀ n s e, ∃ r : ℝ, proj x W b n s e = (r : EReal) := by
  intro n s e
  exact add_real (sum_real _ _ (fun d _ => mul_real (hx n s d) (hW e d))) (hb e)

/-- The scaled dot products of real rows are real numbers. -/
theorem score_real (Q K : Act) (hQ : ∀ n s e, ∃ r : ℝ, Q n s e = (r : EReal))
    (hK : ∀ n s e, ∃ r : ℝ, K n s e = (r : EReal)) :
    ∀ n h q k, ∃ r : ℝ, score Q K n h q k = (r : EReal) := by
  intro n h q k
  exact mul_real (sum_real _ _ (fun d _ => mul_real (hQ n q (col h d)) (hK n k (col h d)))) ⟨1 / 8, rfl⟩

/-- With real queries and keys the two ways of averaging give the same heads. -/
theorem heads_eq (Q K V : Act) (hQ : ∀ n s e, ∃ r : ℝ, Q n s e = (r : EReal))
    (hK : ∀ n s e, ∃ r : ℝ, K n s e = (r : EReal)) : heads attnR Q K V = heads attnK Q K V := by
  funext n q e
  exact attn_eq _ _ (fun k => score_real Q K hQ hK n (headOf e) q k)

/-- The two ways of averaging give the same result array as soon as the query and key inputs and the weights and
    biases of their two layers are real numbers. -/
theorem G_eq (x0 x1 x2 : SAct.Idx → EReal) (x3 : SWgt.Idx → EReal) (x4 : SBias.Idx → EReal)
    (x5 : SWgt.Idx → EReal) (x6 : SBias.Idx → EReal) (x7 : SWgt.Idx → EReal) (x8 : SBias.Idx → EReal)
    (x9 : SWgt.Idx → EReal) (x10 : SBias.Idx → EReal)
    (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) :
    G attnR x0 x1 x2 x3 x4 x5 x6 x7 x8 x9 x10 = G attnK x0 x1 x2 x3 x4 x5 x6 x7 x8 x9 x10 := by
  have hQ := proj_real (act x0) (wgt x3) (bias x4) (fun n s d => h0 _) (fun e d => h3 _) (fun e => h4 _)
  have hK := proj_real (act x1) (wgt x5) (bias x6) (fun n s d => h1 _) (fun e d => h5 _) (fun e => h6 _)
  funext i
  unfold G mha
  rw [heads_eq _ _ _ hQ hK]

end Cert.Mha

end
-- ==== Proof.Finite.lean ====
/-
  Finite inputs are real numbers.

  The printed precondition is the conjunction, over the eleven argument arrays, of "every entry has absolute value
  below +∞". At the extended reals the absolute value is `max x (−x)`, the comparison is the order's `<`, and the
  pattern of +∞ denotes `⊤`; an extended real with `max x (−x) < ⊤` is neither `⊤` nor `⊥`, so it is a real number.
  Each conjunct is an all-reduction by `and` into a result with a single index, which being 1 says that the compared
  bit is 1 at every index of the array.
-/
import proofs.«143443_j37838661877847_2_alg».proof.Pre_finite_inputs
import proofs.«143443_j37838661877847_2_alg».proof.Proof.Gen.Pre_finite_inputs
import Idealize.ShloMosaic.Lib.ReduceAll
import Idealize.ShloMosaic.Lib.ValueIdx
import Idealize.ShloMosaic.PureOps.Ideal

noncomputable section

namespace Cert.Mha.Finite

open Idealize.ShloMosaic Cert.Pre_finite_inputs

/-- The rank-0 shape has one index. -/
instance : Subsingleton S_.Idx := ⟨fun a b => funext fun d => d.elim0⟩

/-- The pattern of +∞ denotes the top of the extended reals. -/
theorem ofBits_inf : Ideal.ofBits .f32 0x7F800000#32 = ⊤ := by
  simp [Ideal.ofBits, Ideal.ieee]

/-- An extended real whose absolute value is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element fact of the precondition, read at the extended reals: `|x| < +∞` makes `x` a real number. -/
theorem real_of_finite (x : Ideal .f32)
    (h : FloatOps.cmpf (F := Ideal) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  rw [ofBits_inf] at h
  apply real_of_abs_lt_top
  by_contra hn
  simp only [Ideal.cmp] at h
  rw [decide_eq_false hn] at h
  exact absurd h (by decide)

/-- One conjunct of the precondition: the all-reduction of `|a| < +∞` being 1 makes every entry of `a` a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf a) (broadcastInDim s ![] hb (constant (F := Ideal) S_ .f32 0x7F800000#32)))
        init hr hu ValueIdx.ix0 = 1#1) :
    ∀ i, ∃ r : ℝ, a i = (r : EReal) := fun i =>
  real_of_finite (a i) (Host.reduce_andi_all _ init hr hu ValueIdx.ix0 e i)

/-- The precondition makes the query and key inputs and the weights and biases of their two layers real-valued. -/
theorem real_of_pre (a0 a1 a2 : FVec Ideal S4x2048x1024 .f32) (a3 : FVec Ideal S1024x1024 .f32)
    (a4 : FVec Ideal S1024 .f32) (a5 : FVec Ideal S1024x1024 .f32) (a6 : FVec Ideal S1024 .f32)
    (a7 : FVec Ideal S1024x1024 .f32) (a8 : FVec Ideal S1024 .f32) (a9 : FVec Ideal S1024x1024 .f32)
    (a10 : FVec Ideal S1024 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal))
      ∧ (∀ i, ∃ r : ℝ, a6 i = (r : EReal)) := by
  have e := congrFun h ValueIdx.ix0
  dsimp only [fn, fn_part1, fn_part2, fn_part3, andi] at e
  simp only [IntOp.andi_eq_one] at e
  obtain ⟨⟨⟨⟨⟨⟨⟨⟨⟨⟨e0, e1⟩, -⟩, e3⟩, e4⟩, e5⟩, e6⟩, -⟩, -⟩, -⟩, -⟩ := e
  exact ⟨real_of_all a0 _ _ _ _ e0, real_of_all a1 _ _ _ _ e1, real_of_all a3 _ _ _ _ e3,
    real_of_all a4 _ _ _ _ e4, real_of_all a5 _ _ _ _ e5, real_of_all a6 _ _ _ _ e6⟩

end Cert.Mha.Finite

end
-- ==== Proof.lean ====
/-
  A Pallas multi-head-attention kernel against its jnp reference, as functions on the extended reals.

  Both programs compute, from query / key / value inputs [4, 2048, 1024], four weight matrices [1024, 1024] and four
  biases [1024]: the three input linear layers `x · Wᵀ + b`; in each of 16 heads of 64 columns the scores
  `q · k / 8`, their softmax along the key positions and the weighted average of the value rows; and the output linear
  layer. The kernel does it in five grid kernels on flattened rows — three input layers, an attention core over pairs of
  adjacent heads that averages the shifted exponentials and then multiplies by the reciprocal of their row sum, and the
  output layer —; the reference divides each shifted exponential by the row sum before averaging, and divides the scores
  by 8.0 where the kernel multiplies by 0.125.

  On the extended reals the two arrangements are one function as soon as the row sum is a positive real number, which
  holds when the scores are real numbers, which holds when the query and key inputs and their layers' weights and
  biases are finite: this is where the precondition `finite_inputs` is used (the value rows may be anything). The
  scale is no obstacle: `0.125` is exactly `1/8`, and dividing by the real `8` is multiplying by `1/8` at every
  extended real.

  The pieces: `Cert.Mha.G` (the specification, in both arrangements), `Cert.Mha.G_eq` (the law),
  `Cert.Mha.Finite.real_of_pre` (finite inputs are real numbers), `Cert.ReferenceIdeal.RefValue.ref_eq` (the reference's
  result term is `G attnR`), `Cert.KernelIdeal.Whole.run_value` (the kernel's run ends with the result at `G attnK`),
  `Cert.KernelIdeal.AttnBody.out_apply` (what the attention body stores at an element). The idealization rewrote no
  operation, so `preserves` has nothing to state.
-/
import proofs.«143443_j37838661877847_2_alg».proof.Defs
import proofs.«143443_j37838661877847_2_alg».proof.Proof.Gen.Kernel
import proofs.«143443_j37838661877847_2_alg».proof.Proof.Gen.Kernel.Skeleton
import proofs.«143443_j37838661877847_2_alg».proof.Proof.Gen.Kernel.Launch
import proofs.«143443_j37838661877847_2_alg».proof.Proof.Gen.Kernel.Points
import proofs.«143443_j37838661877847_2_alg».proof.Proof.Gen.Kernel.Frame
import proofs.«143443_j37838661877847_2_alg».proof.Proof.Gen.KernelIdeal
import proofs.«143443_j37838661877847_2_alg».proof.Proof.Gen.KernelIdeal.Skeleton
import proofs.«143443_j37838661877847_2_alg».proof.Proof.Gen.KernelIdeal.Launch
import proofs.«143443_j37838661877847_2_alg».proof.Proof.Gen.KernelIdeal.Points
import proofs.«143443_j37838661877847_2_alg».proof.Proof.Gen.KernelIdeal.Frame
import proofs.«143443_j37838661877847_2_alg».proof.Proof.Gen.ReferenceIdeal
import proofs.«143443_j37838661877847_2_alg».proof.Proof.Gen.ReferenceIdeal.Run
import proofs.«143443_j37838661877847_2_alg».proof.Proof.Gen.ReferenceIdeal.Read
import proofs.«143443_j37838661877847_2_alg».proof.Proof.Gen.Pre_finite_inputs
import proofs.«143443_j37838661877847_2_alg».proof.Proof.KernelValue
import proofs.«143443_j37838661877847_2_alg».proof.Proof.AttnBody
import proofs.«143443_j37838661877847_2_alg».proof.Proof.RefValue
import proofs.«143443_j37838661877847_2_alg».proof.Proof.Softmax
import proofs.«143443_j37838661877847_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the idealized kernel ends with its result at `G attnK` of the arguments and
    the idealized reference with its result at `G attnR` of the same arguments; under the precondition the query and key
    inputs and their layers' parameters are real numbers, and then the two arrangements agree. -/
theorem algebraic : Cert.algebraic_KernelIdeal_ReferenceIdeal := by
  intro m ρ m' ρ' hpre hagree
  refine ⟨fun c => Cert.Mha.G Cert.Mha.attnK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Whole.run_value m ρ Cert.KernelIdeal.AttnBody.out_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.ref_eq]
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  obtain ⟨h0, h1, h3, h4, h5, h6⟩ := Cert.Mha.Finite.real_of_pre _ _ _ _ _ _ _ _ _ _ _ (hpre c)
  exact Cert.Mha.G_eq _ _ _ _ _ _ _ _ _ _ _ h0 h1 h3 h4 h5 h6

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
